-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S64x32 .f32) (main_arg9 : FVec F S32 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S64x32 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x32 .f32) (main_arg7 : FVec F S32 .f32) (main_arg8 : FVec F S64x32 .f32) (main_arg9 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S100000x32 : Shape := ⟨2, ![100000, 32]⟩

abbrev nBuf : Space → Nat
  | .hbm => 108
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S64x32, .f32⟩
  | .hbm, ⟨9, _⟩ => ⟨S32, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S64x64, .f32⟩
  | .hbm, ⟨84, _⟩ => ⟨S1x64, .f32⟩
  | .hbm, ⟨85, _⟩ => ⟨S100000x64, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x64, .f32⟩
  | .hbm, ⟨95, _⟩ => ⟨S1600000x64, .f32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S64, .f32⟩
  | .hbm, ⟨104, _⟩ => ⟨S1x64, .f32⟩
  | .hbm, ⟨105, _⟩ => ⟨S100000x64, .f32⟩
  | .hbm, ⟨106, _⟩ => ⟨S100000x32, .f32⟩
  | .hbm, ⟨107, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  concatenates_S64x32_S64x32_S64x64_d1 : Shape.Concatenates [S64x32, S64x32] S64x64 1
  shapeCasts_S64x64_S64x64 : S64x64.ShapeCasts S64x64
  concatenates_S32_S32_S64_d0 : Shape.Concatenates [S32, S32] S64 0
  slices_S100000x64_S100000x32_0_0 : S100000x64.Slices ![0, 0] S100000x32
  slices_S100000x64_S100000x32_0_32 : S100000x64.Slices ![0, 32] S100000x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S64x32, .f32⟩
  | 9 => ⟨S32, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x64, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x1, .f32⟩
  | 54 => ⟨S1600000x64, .f32⟩
  | 55 => ⟨S1600000x64, .f32⟩
  | 56 => ⟨S_, .f32⟩
  | 57 => ⟨S100000x64, .f32⟩
  | 58 => ⟨S1600000x1, .i32⟩
  | 59 => ⟨S100000x64, .f32⟩
  | 60 => ⟨S100000, .f32⟩
  | 61 => ⟨S100000x1, .f32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x1, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S100000, .f32⟩
  | 108 => ⟨S100000x1, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S100000x32, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000, .f32⟩
  | 9 => ⟨S1600000, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x32, .f32⟩
  | 19 => ⟨S1600000x1, .f32⟩
  | 20 => ⟨S1600000x32, .f32⟩
  | 21 => ⟨S1600000x32, .f32⟩
  | 22 => ⟨S_, .f32⟩
  | 23 => ⟨S100000x32, .f32⟩
  | 24 => ⟨S1600000x1, .i32⟩
  | 25 => ⟨S100000x32, .f32⟩
  | 26 => ⟨S100000, .f32⟩
  | 27 => ⟨S100000x1, .f32⟩
  | 28 => ⟨S100000x32, .f32⟩
  | 29 => ⟨S100000x32, .f32⟩
  | 30 => ⟨S100000x32, .f32⟩
  | 31 => ⟨S1x32, .f32⟩
  | 32 => ⟨S100000x32, .f32⟩
  | 33 => ⟨S100000x32, .f32⟩
  | 34 => ⟨S100000x32, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x32, .f32⟩
  | 63 => ⟨S1600000x1, .f32⟩
  | 64 => ⟨S1600000x32, .f32⟩
  | 65 => ⟨S1600000x32, .f32⟩
  | 66 => ⟨S_, .f32⟩
  | 67 => ⟨S100000x32, .f32⟩
  | 68 => ⟨S1600000x1, .i32⟩
  | 69 => ⟨S100000x32, .f32⟩
  | 70 => ⟨S100000, .f32⟩
  | 71 => ⟨S100000x1, .f32⟩
  | 72 => ⟨S100000x32, .f32⟩
  | 73 => ⟨S100000x32, .f32⟩
  | 74 => ⟨S100000x32, .f32⟩
  | 75 => ⟨S1x32, .f32⟩
  | 76 => ⟨S100000x32, .f32⟩
  | 77 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call1_cst : Ref sig .tc := ⟨.hbm, 115, rfl⟩
abbrev main_call1_v0 : Ref sig .tc := ⟨.hbm, 116, rfl⟩
abbrev main_v86 : Ref sig .tc := ⟨.hbm, 117, rfl⟩
abbrev main_v87 : Ref sig .tc := ⟨.hbm, 118, rfl⟩
abbrev main_c_15 : Ref sig .tc := ⟨.hbm, 119, rfl⟩
abbrev main_v88 : Ref sig .tc := ⟨.hbm, 120, rfl⟩
abbrev main_v89 : Ref sig .tc := ⟨.hbm, 121, rfl⟩
abbrev main_c_16 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_17 : Ref sig .tc := ⟨.hbm, 128, rfl⟩
abbrev main_v95 : Ref sig .tc := ⟨.hbm, 129, rfl⟩
abbrev main_v96 : Ref sig .tc := ⟨.hbm, 130, rfl⟩
abbrev main_c_18 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_19 : Ref sig .tc := ⟨.hbm, 138, rfl⟩
abbrev main_v103 : Ref sig .tc := ⟨.hbm, 139, rfl⟩
abbrev main_v104 : Ref sig .tc := ⟨.hbm, 140, rfl⟩
abbrev main_c_20 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_21 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_c_22 : Ref sig .tc := ⟨.hbm, 163, rfl⟩
abbrev main_v125 : Ref sig .tc := ⟨.hbm, 164, rfl⟩
abbrev main_v126 : Ref sig .tc := ⟨.hbm, 165, rfl⟩
abbrev main_c_23 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_24 : Ref sig .tc := ⟨.hbm, 172, rfl⟩
abbrev main_v132 : Ref sig .tc := ⟨.hbm, 173, rfl⟩
abbrev main_v133 : Ref sig .tc := ⟨.hbm, 174, rfl⟩
abbrev main_c_25 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_c_26 : Ref sig .tc := ⟨.hbm, 182, rfl⟩
abbrev main_v140 : Ref sig .tc := ⟨.hbm, 183, rfl⟩
abbrev main_v141 : Ref sig .tc := ⟨.hbm, 184, rfl⟩
abbrev main_c_27 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_28 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.NamedRun.lean ====
/-
  The idealized kernel's run with its two results NAMED: every weakly fair execution of @main ends, nothing faulting,
  with each result buffer at the contents the last host stretch leaves (the fold of @main's nine segments from the
  launch memory) and every argument array as launched.
-/
import proofs.«141413_j55662776156338_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main's segments read at the two result buffers and the ten arguments: each holds what the fold of
    the segments leaves there, and for an argument that is its launch contents. -/
theorem run : θ_run defs (onTc (τ := τ) (main (F := F))) ⟨m, fun _ => 0, ρ⟩ (fun r => ∀ c : Dev nD,
      r.2.mem ((c.tc : Thread nD τ).loc main_v80) = W9 m ρ c (Proc.devRef .tc main_v80)
      ∧ r.2.mem ((c.tc : Thread nD τ).loc main_v81) = W9 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v80 (by decide)),
       h c _ (mem_uc main_v81 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Named

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«141413_j55662776156338_2_alg».proof.Proof.LibPlainMatmul
import proofs.«141413_j55662776156338_2_alg».proof.Proof.LibHostReads
import proofs.«141413_j55662776156338_2_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.LibRowBias.lean ====
/-
  One row broadcast down a block of rows, against the same row broadcast down a tall table: a row [1, N] laid down
  TM rows by a vector broadcast is, for ANY map ρ of the TM row numbers into the M row numbers, the rows ρ 0, ρ 1, …
  of the same row laid down M rows by a host broadcast_in_dim along both axes. Any sizes, any element type.
-/
import Idealize.ShloMosaic.Lib.Pipeline.Value
import Idealize.ShloMosaic.Lib.ValueIdx
import Idealize.ShloMosaic.Lib.ValueLayout
import proofs.«141413_j55662776156338_2_alg».proof.Proof.LibBlockRows

noncomputable section

namespace Cert.RowBias

open Idealize.ShloMosaic Idealize.ShloMosaic.ValueIdx Cert.BlockRows

/-- One row of N numbers broadcast down TM rows is any TM picked rows of the same row broadcast down M rows. -/
theorem biasRow_rows {α : Type} {TM M N : Nat} (ρ : Fin TM → Fin M)
    (hb : (⟨2, ![1, N]⟩ : Shape).Broadcasts ⟨2, ![TM, N]⟩)
    (h2 : (⟨2, ![1, N]⟩ : Shape).BroadcastsInDim ⟨2, ![M, N]⟩ ![0, 1]) (B : (⟨2, ![1, N]⟩ : Shape).Idx → α) :
    broadcastTo ⟨2, ![TM, N]⟩ B hb = rowsOf ρ (broadcastInDim ⟨2, ![M, N]⟩ ![0, 1] h2 B) := by
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

end Cert.RowBias

end
-- ==== Proof.BlockLaws.lean ====
/-
  The four kernel bodies read on picked rows. Every body works on a block of 5000 rows of tall tables of 100000
  rows and treats each row separately, so on rows picked by any map ρ it returns the picked rows of a function of the
  whole tables:
    * the plain product X · W (narrowing the operands first changes nothing on the extended reals);
    * the hidden layer max((A + S) + B, 0) · W, where B is one row of 64 numbers added to every row;
    * the last combine (A + S) + B.
-/
import proofs.«141413_j55662776156338_2_alg».proof.Proof.Gen.KernelIdeal.Skeleton
import proofs.«141413_j55662776156338_2_alg».proof.Proof.LibBlockRows
import proofs.«141413_j55662776156338_2_alg».proof.Proof.LibRowBias
import Idealize.ShloMosaic.Lib.ValueLayout

set_option maxRecDepth 16384

noncomputable section

namespace Cert.KernelIdeal.BlockLaws

open Cert.KernelIdeal Cert.KernelIdeal.Gen Cert.BlockRows Cert.RowBias
open Idealize.ShloMosaic Idealize.ShloMosaic.ValueIdx

/-- The sum of the aggregate, the self-loop term and the bias row, on the whole tables. -/
def combined (h2 : S1x64.BroadcastsInDim S100000x64 ![0, 1])
    (A S : FVec Ideal S100000x64 .f32) (B : FVec Ideal S1x64 .f32) : FVec Ideal S100000x64 .f32 :=
  addf (addf A S) (broadcastInDim S100000x64 ![0, 1] h2 B)

/-- The hidden activation max((A + S) + B, 0) on the whole tables. -/
def hidden (h2 : S1x64.BroadcastsInDim S100000x64 ![0, 1]) (h0 : S_.BroadcastsInDim S100000x64 ![])
    (A S : FVec Ideal S100000x64 .f32) (B : FVec Ideal S1x64 .f32) : FVec Ideal S100000x64 .f32 :=
  relu h0 (combined h2 A S B)

/-- The first body: the product of picked rows of X with W is the picked rows of the host's product X · W. -/
theorem pay0_rows (ρ : Fin 5000 → Fin 100000) (X : FVec Ideal S100000x128 .f32) (W : FVec Ideal S128x64 .f32) :
    k0_pay1 (F := Ideal) (rowsOf ρ X) W
      = rowsOf ρ (propagate (M := 100000) (K := 128) (N := 64) X W) := by
  unfold k0_pay1 propagate
  exact matmul_rows ρ none none _ _ X W (fun _ _ => rfl) (fun _ _ => rfl)

/-- The block's activation is the picked rows of the hidden activation. -/
theorem hidden_rows (ρ : Fin 5000 → Fin 100000) (h2 : S1x64.BroadcastsInDim S100000x64 ![0, 1])
    (h0 : S_.BroadcastsInDim S100000x64 ![]) (hb : S1x64.Broadcasts S5000x64)
    (A S : FVec Ideal S100000x64 .f32) (B : FVec Ideal S1x64 .f32) :
    maximumf (addf (addf (rowsOf ρ A) (rowsOf ρ S)) (broadcastTo S5000x64 B hb))
        (broadcast S5000x64 (Scalar.ofBits (F := Ideal) .f32 0x00000000#32))
      = rowsOf ρ (hidden h2 h0 A S B) := by
  rw [biasRow_rows ρ hb h2 B, addf_rows, addf_rows, relu_rows ρ h0]
  rfl

/-- The second body: on picked rows it is the picked rows of hidden · W. -/
theorem pay1_rows (ρ : Fin 5000 → Fin 100000) (h2 : S1x64.BroadcastsInDim S100000x64 ![0, 1])
    (h0 : S_.BroadcastsInDim S100000x64 ![])
    (A S : FVec Ideal S100000x64 .f32) (B : FVec Ideal S1x64 .f32) (W : FVec Ideal S64x64 .f32) :
    k1_pay1 (F := Ideal) (rowsOf ρ A) (rowsOf ρ S) B W
      = rowsOf ρ (propagate (M := 100000) (K := 64) (N := 64) (hidden h2 h0 A S B) W) := by
  unfold k1_pay1 propagate
  simp only [shapeCast_self]
  refine matmul_rows ρ none none _ _ (hidden h2 h0 A S B) W (fun p k => ?_) (fun _ _ => rfl)
  exact congrFun (hidden_rows ρ h2 h0 _ A S B) (ix2 p k)

/-- The third body: the same layer, its weight table re-laid in place first. -/
theorem pay2_rows (ρ : Fin 5000 → Fin 100000) (h2 : S1x64.BroadcastsInDim S100000x64 ![0, 1])
    (h0 : S_.BroadcastsInDim S100000x64 ![])
    (A S : FVec Ideal S100000x64 .f32) (B : FVec Ideal S1x64 .f32) (W : FVec Ideal S64x64 .f32) :
    k2_pay1 (F := Ideal) (rowsOf ρ A) (rowsOf ρ S) B W
      = rowsOf ρ (propagate (M := 100000) (K := 64) (N := 64) (hidden h2 h0 A S B) W) := by
  unfold k2_pay1 propagate
  simp only [shapeCast_self]
  refine matmul_rows ρ none none _ _ (hidden h2 h0 A S B) W (fun p k => ?_) (fun _ _ => rfl)
  exact congrFun (hidden_rows ρ h2 h0 _ A S B) (ix2 p k)

/-- The last body: on picked rows it is the picked rows of (A + S) + B. -/
theorem pay3_rows (ρ : Fin 5000 → Fin 100000) (h2 : S1x64.BroadcastsInDim S100000x64 ![0, 1])
    (A S : FVec Ideal S100000x64 .f32) (B : FVec Ideal S1x64 .f32) :
    k3_pay1 (F := Ideal) (rowsOf ρ A) (rowsOf ρ S) B = rowsOf ρ (combined h2 A S B) := by
  unfold k3_pay1
  simp only [shapeCast_self]
  rw [biasRow_rows ρ _ h2 B, addf_rows, addf_rows]
  rfl

end Cert.KernelIdeal.BlockLaws

end
-- ==== Proof.Blocks.lean ====
/-
  From blocks to arrays, region by region. Each of the four kernels runs over 20 grid points; point t reads rows
  5000 t … 5000 t + 4999 of its tall tables (and its small tables whole) and writes back the same rows of its
  output. A body returns, on picked rows, the picked rows of one whole-array function (the block laws); the
  20 blocks written back tile the output's 100000 rows; so after the region the output array IS that function of the
  arrays the region found at entry, whatever they were.
-/
import proofs.«141413_j55662776156338_2_alg».proof.Proof.Gen.KernelIdeal.Frame
import proofs.«141413_j55662776156338_2_alg».proof.Proof.BlockLaws
import Idealize.ShloMosaic.Lib.Pipeline.Value

set_option maxRecDepth 16384

noncomputable section

namespace Cert.KernelIdeal.Blocks

open Cert.KernelIdeal Cert.KernelIdeal.Gen Cert.KernelIdeal.BlockLaws Cert.BlockRows
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The zero table the maximum is taken with. -/
abbrev h0 : S_.BroadcastsInDim S100000x64 ![] := Gen.bcast_S_S100000x64

variable (V : (c : Dev nD) → (b : Ref sig .tc) → Buf (Elt Ideal) ((c : Thread nD τ).loc b))
variable (h2 : S1x64.BroadcastsInDim S100000x64 ![0, 1])

/-! ## Region 0: its output array is the host's product of the two arrays it reads -/

/-- The printed index maps, decided over the 20 grid points: a tall table's block index is the point's number, a
    small table's is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows of the tall tables that point t works on: 5000 t, …, 5000 t + 4999. -/
def rowAt0 (t : Fin cfg0.N) : Fin 5000 → Fin 100000 := fun p =>
  ⟨5000 * t.val + p.val, by have ht : t.val < 20 := t.isLt; have hp := p.isLt; omega⟩

/-- Window 0's block at point t is those rows of its array. -/
theorem blk0_0 (c : Dev nD) (t : Fin cfg0.N) :
    (iblk0 V c 0 t : Vec Ideal S5000x128 .f32) = rowsOf (rowAt0 t) (V c main_arg0) := by
  obtain ⟨e0, e1, -, -, -, -⟩ := idx_facts0 t
  funext j
  show V c main_arg0 (((cfg0.win 0).blk t).view.emb j) = V c main_arg0 (ix2 (rowAt0 t (j 0)) (j 1))
  refine congrArg (V c main_arg0) (funext fun a => Fin.ext ?_)
  match a with
  | ⟨0, _⟩ => show win0_0.index t (0 : Fin 2) * 5000 + 1 * (j 0).val = 5000 * t.val + (j 0).val; omega
  | ⟨1, _⟩ => show win0_0.index t (1 : Fin 2) * 128 + 1 * (j 1).val = (j 1).val; omega

/-- Window 1's block at every point is its whole array. -/
theorem blk0_1 (c : Dev nD) (t : Fin cfg0.N) :
    (iblk0 V c 1 t : Vec Ideal S128x64 .f32) = V c main_arg2 := by
  obtain ⟨-, -, e2, e3, -, -⟩ := idx_facts0 t
  funext j
  show V c main_arg2 (((cfg0.win 1).blk t).view.emb j) = V c main_arg2 j
  refine congrArg (V c main_arg2) (funext fun a => Fin.ext ?_)
  match a with
  | ⟨0, _⟩ => show win0_1.index t (0 : Fin 2) * 128 + 1 * (j 0).val = (j 0).val; omega
  | ⟨1, _⟩ => show win0_1.index t (1 : Fin 2) * 64 + 1 * (j 1).val = (j 1).val; omega

/-- What point t writes back is block t of that whole-array function. -/
theorem flushed0 (c : Dev nD) (t : Fin cfg0.N) :
    (dat0 V c).flushed 2 t = ((cfg0.win 2).blk t).view.read (Elt Ideal)
      (propagate (M := 100000) (K := 128) (N := 64) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  rw [blk0_0 V c t, blk0_1 V c t, pay0_rows (rowAt0 t) (V c main_arg0) (V c main_arg2)]
  obtain ⟨-, -, -, -, e4, e5⟩ := idx_facts0 t
  funext j
  show (propagate (M := 100000) (K := 128) (N := 64) (V c main_arg0) (V c main_arg2)) (ix2 (rowAt0 t (j 0)) (j 1)) = (propagate (M := 100000) (K := 128) (N := 64) (V c main_arg0) (V c main_arg2)) (((cfg0.win 2).blk t).view.emb j)
  refine congrArg (propagate (M := 100000) (K := 128) (N := 64) (V c main_arg0) (V c main_arg2)) (funext fun a => Fin.ext ?_)
  match a with
  | ⟨0, _⟩ => show 5000 * t.val + (j 0).val = win0_2.index t (0 : Fin 2) * 5000 + 1 * (j 0).val; omega
  | ⟨1, _⟩ => show (j 1).val = win0_2.index t (1 : Fin 2) * 64 + 1 * (j 1).val; omega

/-- An index of the output array lies in point t's block iff each coordinate lies in the block's range. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v29).slice (win0_2.rect t)).set ↔ _
  rw [View.set_slice_whole, Rect.mem_set_unit]
  exact Iff.rfl

/-- Row r of the output array is written back by point r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 5000 < cfg0.N := by show (i 0).val / 5000 < 20; omega
  obtain ⟨-, -, -, -, e4, e5⟩ := idx_facts0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    rw [e5]
    omega

/-- THE OUTPUT ARRAY after the region: the host's product of the two arrays it reads, as the region finds them. -/
theorem final0 (c : Dev nD) : (dat0 V c).arrAt 2 cfg0.N = propagate (M := 100000) (K := 128) (N := 64) (V c main_arg0) (V c main_arg2) :=
  (dat0 V c).arrAt_eq_of_cover 2 _ (fun t _ => flushed0 V c t) (cover0)

/-! ## Region 1: its output array is the host's product of the hidden activation of the three arrays it reads with the weight table -/

/-- The printed index maps, decided over the 20 grid points: a tall table's block index is the point's number, a
    small table's is zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The rows of the tall tables that point t works on: 5000 t, …, 5000 t + 4999. -/
def rowAt1 (t : Fin cfg1.N) : Fin 5000 → Fin 100000 := fun p =>
  ⟨5000 * t.val + p.val, by have ht : t.val < 20 := t.isLt; have hp := p.isLt; omega⟩

/-- Window 0's block at point t is those rows of its array. -/
theorem blk1_0 (c : Dev nD) (t : Fin cfg1.N) :
    (iblk1 V c 0 t : Vec Ideal S5000x64 .f32) = rowsOf (rowAt1 t) (V c main_v41) := by
  obtain ⟨e0, e1, -, -, -, -, -, -, -, -⟩ := idx_facts1 t
  funext j
  show V c main_v41 (((cfg1.win 0).blk t).view.emb j) = V c main_v41 (ix2 (rowAt1 t (j 0)) (j 1))
  refine congrArg (V c main_v41) (funext fun a => Fin.ext ?_)
  match a with
  | ⟨0, _⟩ => show win1_0.index t (0 : Fin 2) * 5000 + 1 * (j 0).val = 5000 * t.val + (j 0).val; omega
  | ⟨1, _⟩ => show win1_0.index t (1 : Fin 2) * 64 + 1 * (j 1).val = (j 1).val; omega

/-- Window 1's block at point t is those rows of its array. -/
theorem blk1_1 (c : Dev nD) (t : Fin cfg1.N) :
    (iblk1 V c 1 t : Vec Ideal S5000x64 .f32) = rowsOf (rowAt1 t) (V c main_v43) := by
  obtain ⟨-, -, e2, e3, -, -, -, -, -, -⟩ := idx_facts1 t
  funext j
  show V c main_v43 (((cfg1.win 1).blk t).view.emb j) = V c main_v43 (ix2 (rowAt1 t (j 0)) (j 1))
  refine congrArg (V c main_v43) (funext fun a => Fin.ext ?_)
  match a with
  | ⟨0, _⟩ => show win1_1.index t (0 : Fin 2) * 5000 + 1 * (j 0).val = 5000 * t.val + (j 0).val; omega
  | ⟨1, _⟩ => show win1_1.index t (1 : Fin 2) * 64 + 1 * (j 1).val = (j 1).val; omega

/-- Window 2's block at every point is its whole array. -/
theorem blk1_2 (c : Dev nD) (t : Fin cfg1.N) :
    (iblk1 V c 2 t : Vec Ideal S1x64 .f32) = V c main_v44 := by
  obtain ⟨-, -, -, -, e4, e5, -, -, -, -⟩ := idx_facts1 t
  funext j
  show V c main_v44 (((cfg1.win 2).blk t).view.emb j) = V c main_v44 j
  refine congrArg (V c main_v44) (funext fun a => Fin.ext ?_)
  match a with
  | ⟨0, _⟩ => show win1_2.index t (0 : Fin 2) * 1 + 1 * (j 0).val = (j 0).val; omega
  | ⟨1, _⟩ => show win1_2.index t (1 : Fin 2) * 64 + 1 * (j 1).val = (j 1).val; omega

/-- Window 3's block at every point is its whole array. -/
theorem blk1_3 (c : Dev nD) (t : Fin cfg1.N) :
    (iblk1 V c 3 t : Vec Ideal S64x64 .f32) = V c main_arg4 := by
  obtain ⟨-, -, -, -, -, -, e6, e7, -, -⟩ := idx_facts1 t
  funext j
  show V c main_arg4 (((cfg1.win 3).blk t).view.emb j) = V c main_arg4 j
  refine congrArg (V c main_arg4) (funext fun a => Fin.ext ?_)
  match a with
  | ⟨0, _⟩ => show win1_3.index t (0 : Fin 2) * 64 + 1 * (j 0).val = (j 0).val; omega
  | ⟨1, _⟩ => show win1_3.index t (1 : Fin 2) * 64 + 1 * (j 1).val = (j 1).val; omega

/-- What point t writes back is block t of that whole-array function. -/
theorem flushed1 (c : Dev nD) (t : Fin cfg1.N) :
    (dat1 V c).flushed 4 t = ((cfg1.win 4).blk t).view.read (Elt Ideal)
      (propagate (M := 100000) (K := 64) (N := 64) (hidden h2 h0 (V c main_v41) (V c main_v43) (V c main_v44)) (V c main_arg4)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S64x64) hz]
  rw [blk1_0 V c t, blk1_1 V c t, blk1_2 V c t, blk1_3 V c t, pay1_rows (rowAt1 t) h2 h0 (V c main_v41) (V c main_v43) (V c main_v44) (V c main_arg4)]
  obtain ⟨-, -, -, -, -, -, -, -, e8, e9⟩ := idx_facts1 t
  funext j
  show (propagate (M := 100000) (K := 64) (N := 64) (hidden h2 h0 (V c main_v41) (V c main_v43) (V c main_v44)) (V c main_arg4)) (ix2 (rowAt1 t (j 0)) (j 1)) = (propagate (M := 100000) (K := 64) (N := 64) (hidden h2 h0 (V c main_v41) (V c main_v43) (V c main_v44)) (V c main_arg4)) (((cfg1.win 4).blk t).view.emb j)
  refine congrArg (propagate (M := 100000) (K := 64) (N := 64) (hidden h2 h0 (V c main_v41) (V c main_v43) (V c main_v44)) (V c main_arg4)) (funext fun a => Fin.ext ?_)
  match a with
  | ⟨0, _⟩ => show 5000 * t.val + (j 0).val = win1_4.index t (0 : Fin 2) * 5000 + 1 * (j 0).val; omega
  | ⟨1, _⟩ => show (j 1).val = win1_4.index t (1 : Fin 2) * 64 + 1 * (j 1).val; omega

/-- An index of the output array lies in point t's block iff each coordinate lies in the block's range. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v45).slice (win1_4.rect t)).set ↔ _
  rw [View.set_slice_whole, Rect.mem_set_unit]
  exact Iff.rfl

/-- Row r of the output array is written back by point r / 5000. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 5000 < cfg1.N := by show (i 0).val / 5000 < 20; omega
  obtain ⟨-, -, -, -, -, -, -, -, e8, e9⟩ := idx_facts1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, hlt⟩ (1 : Fin 2) * 64 ≤ (i 1).val
      ∧ (i 1).val < win1_4.index ⟨(i 0).val / 5000, hlt⟩ (1 : Fin 2) * 64 + 64
    rw [e9]
    omega

/-- THE OUTPUT ARRAY after the region: the host's product of the hidden activation of the three arrays it reads with the weight table, as the region finds them. -/
theorem final1 (c : Dev nD) : (dat1 V c).arrAt 4 cfg1.N = propagate (M := 100000) (K := 64) (N := 64) (hidden h2 h0 (V c main_v41) (V c main_v43) (V c main_v44)) (V c main_arg4) :=
  (dat1 V c).arrAt_eq_of_cover 4 _ (fun t _ => flushed1 V h2 c t) (cover1)

/-! ## Region 2: its output array is the host's product of the hidden activation of the three arrays it reads with the joined weight table -/

/-- The printed index maps, decided over the 20 grid points: a tall table's block index is the point's number, a
    small table's is zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The rows of the tall tables that point t works on: 5000 t, …, 5000 t + 4999. -/
def rowAt2 (t : Fin cfg2.N) : Fin 5000 → Fin 100000 := fun p =>
  ⟨5000 * t.val + p.val, by have ht : t.val < 20 := t.isLt; have hp := p.isLt; omega⟩

/-- Window 0's block at point t is those rows of its array. -/
theorem blk2_0 (c : Dev nD) (t : Fin cfg2.N) :
    (iblk2 V c 0 t : Vec Ideal S5000x64 .f32) = rowsOf (rowAt2 t) (V c main_v57) := by
  obtain ⟨e0, e1, -, -, -, -, -, -, -, -⟩ := idx_facts2 t
  funext j
  show V c main_v57 (((cfg2.win 0).blk t).view.emb j) = V c main_v57 (ix2 (rowAt2 t (j 0)) (j 1))
  refine congrArg (V c main_v57) (funext fun a => Fin.ext ?_)
  match a with
  | ⟨0, _⟩ => show win2_0.index t (0 : Fin 2) * 5000 + 1 * (j 0).val = 5000 * t.val + (j 0).val; omega
  | ⟨1, _⟩ => show win2_0.index t (1 : Fin 2) * 64 + 1 * (j 1).val = (j 1).val; omega

/-- Window 1's block at point t is those rows of its array. -/
theorem blk2_1 (c : Dev nD) (t : Fin cfg2.N) :
    (iblk2 V c 1 t : Vec Ideal S5000x64 .f32) = rowsOf (rowAt2 t) (V c main_v59) := by
  obtain ⟨-, -, e2, e3, -, -, -, -, -, -⟩ := idx_facts2 t
  funext j
  show V c main_v59 (((cfg2.win 1).blk t).view.emb j) = V c main_v59 (ix2 (rowAt2 t (j 0)) (j 1))
  refine congrArg (V c main_v59) (funext fun a => Fin.ext ?_)
  match a with
  | ⟨0, _⟩ => show win2_1.index t (0 : Fin 2) * 5000 + 1 * (j 0).val = 5000 * t.val + (j 0).val; omega
  | ⟨1, _⟩ => show win2_1.index t (1 : Fin 2) * 64 + 1 * (j 1).val = (j 1).val; omega

/-- Window 2's block at every point is its whole array. -/
theorem blk2_2 (c : Dev nD) (t : Fin cfg2.N) :
    (iblk2 V c 2 t : Vec Ideal S1x64 .f32) = V c main_v61 := by
  obtain ⟨-, -, -, -, e4, e5, -, -, -, -⟩ := idx_facts2 t
  funext j
  show V c main_v61 (((cfg2.win 2).blk t).view.emb j) = V c main_v61 j
  refine congrArg (V c main_v61) (funext fun a => Fin.ext ?_)
  match a with
  | ⟨0, _⟩ => show win2_2.index t (0 : Fin 2) * 1 + 1 * (j 0).val = (j 0).val; omega
  | ⟨1, _⟩ => show win2_2.index t (1 : Fin 2) * 64 + 1 * (j 1).val = (j 1).val; omega

/-- Window 3's block at every point is its whole array. -/
theorem blk2_3 (c : Dev nD) (t : Fin cfg2.N) :
    (iblk2 V c 3 t : Vec Ideal S64x64 .f32) = V c main_v60 := by
  obtain ⟨-, -, -, -, -, -, e6, e7, -, -⟩ := idx_facts2 t
  funext j
  show V c main_v60 (((cfg2.win 3).blk t).view.emb j) = V c main_v60 j
  refine congrArg (V c main_v60) (funext fun a => Fin.ext ?_)
  match a with
  | ⟨0, _⟩ => show win2_3.index t (0 : Fin 2) * 64 + 1 * (j 0).val = (j 0).val; omega
  | ⟨1, _⟩ => show win2_3.index t (1 : Fin 2) * 64 + 1 * (j 1).val = (j 1).val; omega

/-- What point t writes back is block t of that whole-array function. -/
theorem flushed2 (c : Dev nD) (t : Fin cfg2.N) :
    (dat2 V c).flushed 4 t = ((cfg2.win 4).blk t).view.read (Elt Ideal)
      (propagate (M := 100000) (K := 64) (N := 64) (hidden h2 h0 (V c main_v57) (V c main_v59) (V c main_v61)) (V c main_v60)) := by
  show (cfg2.win 4).cut (grid2.coords t) ((dat2 V c).after 4 t) = _
  rw [after2_4]
  unfold out2_4
  rw [View.canon_unit_zero hz]
  simp only [View.ld_unit_zero (S := S5000x64) hz, View.ld_unit_zero (S := S1x64) hz, View.ld_unit_zero (S := S64x64) hz]
  rw [blk2_0 V c t, blk2_1 V c t, blk2_2 V c t, blk2_3 V c t, pay2_rows (rowAt2 t) h2 h0 (V c main_v57) (V c main_v59) (V c main_v61) (V c main_v60)]
  obtain ⟨-, -, -, -, -, -, -, -, e8, e9⟩ := idx_facts2 t
  funext j
  show (propagate (M := 100000) (K := 64) (N := 64) (hidden h2 h0 (V c main_v57) (V c main_v59) (V c main_v61)) (V c main_v60)) (ix2 (rowAt2 t (j 0)) (j 1)) = (propagate (M := 100000) (K := 64) (N := 64) (hidden h2 h0 (V c main_v57) (V c main_v59) (V c main_v61)) (V c main_v60)) (((cfg2.win 4).blk t).view.emb j)
  refine congrArg (propagate (M := 100000) (K := 64) (N := 64) (hidden h2 h0 (V c main_v57) (V c main_v59) (V c main_v61)) (V c main_v60)) (funext fun a => Fin.ext ?_)
  match a with
  | ⟨0, _⟩ => show 5000 * t.val + (j 0).val = win2_4.index t (0 : Fin 2) * 5000 + 1 * (j 0).val; omega
  | ⟨1, _⟩ => show (j 1).val = win2_4.index t (1 : Fin 2) * 64 + 1 * (j 1).val; omega

/-- An index of the output array lies in point t's block iff each coordinate lies in the block's range. -/
theorem mem_blk2 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v62).slice (win2_4.rect t)).set ↔ _
  rw [View.set_slice_whole, Rect.mem_set_unit]
  exact Iff.rfl

/-- Row r of the output array is written back by point r / 5000. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hlt : (i 0).val / 5000 < cfg2.N := by show (i 0).val / 5000 < 20; omega
  obtain ⟨-, -, -, -, -, -, -, -, e8, e9⟩ := idx_facts2 ⟨(i 0).val / 5000, hlt⟩
  refine ⟨⟨(i 0).val / 5000, hlt⟩, flush2_4 _, ?_⟩
  rw [mem_blk2]
  intro a
  match a with
  | ⟨0, _⟩ =>
    show win2_4.index ⟨(i 0).val / 5000, hlt⟩ (0 : Fin 2) * 5000 ≤ (i 0).val
      ∧ (i 0).val < win2_4.index ⟨(i 0).val / 5000, hlt⟩ (0 : Fin 2) * 5000 + 5000
    rw [e8]
    show (i 0).val / 5000 * 5000 ≤ (i 0).val ∧ (i 0).val < (i 0).val / 5000 * 5000 + 5000
    omega
  | ⟨1, _⟩ =>
    show win2_4.index ⟨(i 0).val / 5000, hlt⟩ (1 : Fin 2) * 64 ≤ (i 1).val
      ∧ (i 1).val < win2_4.index ⟨(i 0).val / 5000, hlt⟩ (1 : Fin 2) * 64 + 64
    rw [e9]
    omega

/-- THE OUTPUT ARRAY after the region: the host's product of the hidden activation of the three arrays it reads with the joined weight table, as the region finds them. -/
theorem final2 (c : Dev nD) : (dat2 V c).arrAt 4 cfg2.N = propagate (M := 100000) (K := 64) (N := 64) (hidden h2 h0 (V c main_v57) (V c main_v59) (V c main_v61)) (V c main_v60) :=
  (dat2 V c).arrAt_eq_of_cover 4 _ (fun t _ => flushed2 V h2 c t) (cover2)

/-! ## Region 3: its output array is the sum of the three arrays it reads, the third one row added to every row -/

/-- The printed index maps, decided over the 20 grid points: a tall table's block index is the point's number, a
    small table's is zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The rows of the tall tables that point t works on: 5000 t, …, 5000 t + 4999. -/
def rowAt3 (t : Fin cfg3.N) : Fin 5000 → Fin 100000 := fun p =>
  ⟨5000 * t.val + p.val, by have ht : t.val < 20 := t.isLt; have hp := p.isLt; omega⟩

/-- Window 0's block at point t is those rows of its array. -/
theorem blk3_0 (c : Dev nD) (t : Fin cfg3.N) :
    (iblk3 V c 0 t : Vec Ideal S5000x64 .f32) = rowsOf (rowAt3 t) (V c main_v74) := by
  obtain ⟨e0, e1, -, -, -, -, -, -⟩ := idx_facts3 t
  funext j
  show V c main_v74 (((cfg3.win 0).blk t).view.emb j) = V c main_v74 (ix2 (rowAt3 t (j 0)) (j 1))
  refine congrArg (V c main_v74) (funext fun a => Fin.ext ?_)
  match a with
  | ⟨0, _⟩ => show win3_0.index t (0 : Fin 2) * 5000 + 1 * (j 0).val = 5000 * t.val + (j 0).val; omega
  | ⟨1, _⟩ => show win3_0.index t (1 : Fin 2) * 64 + 1 * (j 1).val = (j 1).val; omega

/-- Window 1's block at point t is those rows of its array. -/
theorem blk3_1 (c : Dev nD) (t : Fin cfg3.N) :
    (iblk3 V c 1 t : Vec Ideal S5000x64 .f32) = rowsOf (rowAt3 t) (V c main_v76) := by
  obtain ⟨-, -, e2, e3, -, -, -, -⟩ := idx_facts3 t
  funext j
  show V c main_v76 (((cfg3.win 1).blk t).view.emb j) = V c main_v76 (ix2 (rowAt3 t (j 0)) (j 1))
  refine congrArg (V c main_v76) (funext fun a => Fin.ext ?_)
  match a with
  | ⟨0, _⟩ => show win3_1.index t (0 : Fin 2) * 5000 + 1 * (j 0).val = 5000 * t.val + (j 0).val; omega
  | ⟨1, _⟩ => show win3_1.index t (1 : Fin 2) * 64 + 1 * (j 1).val = (j 1).val; omega

/-- Window 2's block at every point is its whole array. -/
theorem blk3_2 (c : Dev nD) (t : Fin cfg3.N) :
    (iblk3 V c 2 t : Vec Ideal S1x64 .f32) = V c main_v78 := by
  obtain ⟨-, -, -, -, e4, e5, -, -⟩ := idx_facts3 t
  funext j
  show V c main_v78 (((cfg3.win 2).blk t).view.emb j) = V c main_v78 j
  refine congrArg (V c main_v78) (funext fun a => Fin.ext ?_)
  match a with
  | ⟨0, _⟩ => show win3_2.index t (0 : Fin 2) * 1 + 1 * (j 0).val = (j 0).val; omega
  | ⟨1, _⟩ => show win3_2.index t (1 : Fin 2) * 64 + 1 * (j 1).val = (j 1).val; omega

/-- What point t writes back is block t of that whole-array function. -/
theorem flushed3 (c : Dev nD) (t : Fin cfg3.N) :
    (dat3 V c).flushed 3 t = ((cfg3.win 3).blk t).view.read (Elt Ideal)
      (combined h2 (V c main_v74) (V c main_v76) (V c main_v78)) := by
  show (cfg3.win 3).cut (grid3.coords t) ((dat3 V c).after 3 t) = _
  rw [after3_3]
  unfold out3_3
  rw [View.canon_unit_zero hz]
  simp only [View.ld_unit_zero (S := S5000x64) hz, View.ld_unit_zero (S := S1x64) hz]
  rw [blk3_0 V c t, blk3_1 V c t, blk3_2 V c t, pay3_rows (rowAt3 t) h2 (V c main_v74) (V c main_v76) (V c main_v78)]
  obtain ⟨-, -, -, -, -, -, e6, e7⟩ := idx_facts3 t
  funext j
  show (combined h2 (V c main_v74) (V c main_v76) (V c main_v78)) (ix2 (rowAt3 t (j 0)) (j 1)) = (combined h2 (V c main_v74) (V c main_v76) (V c main_v78)) (((cfg3.win 3).blk t).view.emb j)
  refine congrArg (combined h2 (V c main_v74) (V c main_v76) (V c main_v78)) (funext fun a => Fin.ext ?_)
  match a with
  | ⟨0, _⟩ => show 5000 * t.val + (j 0).val = win3_3.index t (0 : Fin 2) * 5000 + 1 * (j 0).val; omega
  | ⟨1, _⟩ => show (j 1).val = win3_3.index t (1 : Fin 2) * 64 + 1 * (j 1).val; omega

/-- An index of the output array lies in point t's block iff each coordinate lies in the block's range. -/
theorem mem_blk3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v79).slice (win3_3.rect t)).set ↔ _
  rw [View.set_slice_whole, Rect.mem_set_unit]
  exact Iff.rfl

/-- Row r of the output array is written back by point r / 5000. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hlt : (i 0).val / 5000 < cfg3.N := by show (i 0).val / 5000 < 20; omega
  obtain ⟨-, -, -, -, -, -, e6, e7⟩ := idx_facts3 ⟨(i 0).val / 5000, hlt⟩
  refine ⟨⟨(i 0).val / 5000, hlt⟩, flush3_3 _, ?_⟩
  rw [mem_blk3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win3_3.index ⟨(i 0).val / 5000, hlt⟩ (1 : Fin 2) * 64 ≤ (i 1).val
      ∧ (i 1).val < win3_3.index ⟨(i 0).val / 5000, hlt⟩ (1 : Fin 2) * 64 + 64
    rw [e7]
    omega

/-- THE OUTPUT ARRAY after the region: the sum of the three arrays it reads, the third one row added to every row, as the region finds them. -/
theorem final3 (c : Dev nD) : (dat3 V c).arrAt 3 cfg3.N = combined h2 (V c main_v74) (V c main_v76) (V c main_v78) :=
  (dat3 V c).arrAt_eq_of_cover 3 _ (fun t _ => flushed3 V h2 c t) (cover3)

end Cert.KernelIdeal.Blocks

end
-- ==== Proof.LibJoinTwo.lean ====
/-
  Two arrays joined along an axis, the two operands as plain arguments of one function (the list of shape-tagged
  pieces a concatenation takes hides them from a rewriter that goes argument by argument).
-/
import Idealize.ShloMosaic.PureOps.Ideal
import Idealize.ShloMosaic.Lib.Pipeline.Value

noncomputable section

namespace Cert.JoinTwo

open Idealize.ShloMosaic

/-- The concatenation of two pieces along axis a. -/
def cat2 {α : Type} (t s₁ s₂ : Shape) (a : Fin t.rank) (h : Shape.Concatenates [s₁, s₂] t a)
    (u : s₁.Idx → α) (v : s₂.Idx → α) : t.Idx → α :=
  concatenate t a [⟨s₁, u⟩, ⟨s₂, v⟩] h

/-- A two-piece concatenation is it. -/
theorem cat2_fold {α : Type} (t s₁ s₂ : Shape) (a : Fin t.rank) (h : Shape.Concatenates [s₁, s₂] t a)
    (u : s₁.Idx → α) (v : s₂.Idx → α) : concatenate t a [⟨s₁, u⟩, ⟨s₂, v⟩] h = cat2 t s₁ s₂ a h u v := rfl

end Cert.JoinTwo

end
-- ==== Proof.Stages.lean ====
/-
  The contents of the idealized kernel's buffers at each boundary between its host stretches and its four regions,
  as functions of the argument arrays. The names of those functions are the reference's own stages (each host
  operation of the reference as a function of @main's arguments): the kernel's host stretches apply the same
  operations, so up to the last region every buffer the kernel computes IS a stage of the reference — the degree
  normalisation, the edge weights, the aggregate Σ_{e → r} w_e · h[src e] and the self-loop term of each layer, and
  each region's product (the block laws: a region's output is the host's product on the whole tables).
-/
import proofs.«141413_j55662776156338_2_alg».proof.Proof.Gen.KernelIdeal.Frame
import proofs.«141413_j55662776156338_2_alg».proof.Proof.Gen.ReferenceIdeal.Read
import proofs.«141413_j55662776156338_2_alg».proof.Proof.Blocks
import proofs.«141413_j55662776156338_2_alg».proof.Proof.LibJoinTwo
import Idealize.ShloMosaic.Lib.StableHlo.Run

set_option maxRecDepth 16384

noncomputable section

namespace Cert.KernelIdeal.Stages

open Cert.KernelIdeal Cert.KernelIdeal.Gen Cert.KernelIdeal.Blocks Cert.KernelIdeal.BlockLaws Cert.BlockRows
open Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the first region -/

/-- The source node of each edge. -/
theorem w1_v1 : W1 m ρ c (Proc.devRef .tc main_v1) = val_main_v1 (F := Ideal) (m ((c : Thread nD τ).loc main_arg1)) := by
  dsimp only [W1, hostOps0]
  after_results_simp
  rfl

/-- The destination node of each edge. -/
theorem w1_v3 : W1 m ρ c (Proc.devRef .tc main_v3) = val_main_v3 (F := Ideal) (m ((c : Thread nD τ).loc main_arg1)) := by
  dsimp only [W1, hostOps0]
  after_results_simp
  rfl

/-- The self-loop scale 1/deg of each node, as a column. -/
theorem w1_v12 : W1 m ρ c (Proc.devRef .tc main_v12) = val_main_v41 (F := Ideal) (m ((c : Thread nD τ).loc main_arg1)) := by
  dsimp only [W1, hostOps0]
  after_results_simp
  rfl

/-- The weight of each edge, deg(src)^(-1/2) · deg(dst)^(-1/2), as a column. -/
theorem w1_v28 : W1 m ρ c (Proc.devRef .tc main_v28) = val_main_v34 (F := Ideal) (m ((c : Thread nD τ).loc main_arg1)) := by
  dsimp only [W1, hostOps0]
  after_results_simp
  rfl

theorem w1_arg0 : W1 m ρ c (Proc.devRef .tc main_arg0) = (m ((c : Thread nD τ).loc main_arg0)) := by
  dsimp only [W1, hostOps0]
  after_results_simp

theorem w1_arg2 : W1 m ρ c (Proc.devRef .tc main_arg2) = (m ((c : Thread nD τ).loc main_arg2)) := by
  dsimp only [W1, hostOps0]
  after_results_simp

theorem w1_arg3 : W1 m ρ c (Proc.devRef .tc main_arg3) = (m ((c : Thread nD τ).loc main_arg3)) := by
  dsimp only [W1, hostOps0]
  after_results_simp

theorem w1_arg4 : W1 m ρ c (Proc.devRef .tc main_arg4) = (m ((c : Thread nD τ).loc main_arg4)) := by
  dsimp only [W1, hostOps0]
  after_results_simp

theorem w1_arg5 : W1 m ρ c (Proc.devRef .tc main_arg5) = (m ((c : Thread nD τ).loc main_arg5)) := by
  dsimp only [W1, hostOps0]
  after_results_simp

theorem w1_arg6 : W1 m ρ c (Proc.devRef .tc main_arg6) = (m ((c : Thread nD τ).loc main_arg6)) := by
  dsimp only [W1, hostOps0]
  after_results_simp

theorem w1_arg7 : W1 m ρ c (Proc.devRef .tc main_arg7) = (m ((c : Thread nD τ).loc main_arg7)) := by
  dsimp only [W1, hostOps0]
  after_results_simp

theorem w1_arg8 : W1 m ρ c (Proc.devRef .tc main_arg8) = (m ((c : Thread nD τ).loc main_arg8)) := by
  dsimp only [W1, hostOps0]
  after_results_simp

theorem w1_arg9 : W1 m ρ c (Proc.devRef .tc main_arg9) = (m ((c : Thread nD τ).loc main_arg9)) := by
  dsimp only [W1, hostOps0]
  after_results_simp

/-! ## The first region: h₁ = x · W1 -/

theorem w2_v29 : W2 m ρ c (Proc.devRef .tc main_v29) = val_main_v11 (F := Ideal) (m ((c : Thread nD τ).loc main_arg0)) (m ((c : Thread nD τ).loc main_arg2)) := by
  refine (W2_arr m ρ c 2).trans ((final0 (V1 m ρ) c).trans ?_)
  show propagate (M := 100000) (K := 128) (N := 64) (W1 m ρ c (Proc.devRef .tc main_arg0)) (W1 m ρ c (Proc.devRef .tc main_arg2)) = _
  rw [w1_arg0, w1_arg2]
  rfl

theorem w2_v1 : W2 m ρ c (Proc.devRef .tc main_v1) = val_main_v1 (F := Ideal) (m ((c : Thread nD τ).loc main_arg1)) :=
  (W2_of_ne m ρ c main_v1 (by decide)).trans (w1_v1 m ρ c)
theorem w2_v3 : W2 m ρ c (Proc.devRef .tc main_v3) = val_main_v3 (F := Ideal) (m ((c : Thread nD τ).loc main_arg1)) :=
  (W2_of_ne m ρ c main_v3 (by decide)).trans (w1_v3 m ρ c)
theorem w2_v12 : W2 m ρ c (Proc.devRef .tc main_v12) = val_main_v41 (F := Ideal) (m ((c : Thread nD τ).loc main_arg1)) :=
  (W2_of_ne m ρ c main_v12 (by decide)).trans (w1_v12 m ρ c)
theorem w2_v28 : W2 m ρ c (Proc.devRef .tc main_v28) = val_main_v34 (F := Ideal) (m ((c : Thread nD τ).loc main_arg1)) :=
  (W2_of_ne m ρ c main_v28 (by decide)).trans (w1_v28 m ρ c)
theorem w2_arg3 : W2 m ρ c (Proc.devRef .tc main_arg3) = (m ((c : Thread nD τ).loc main_arg3)) :=
  (W2_of_ne m ρ c main_arg3 (by decide)).trans (w1_arg3 m ρ c)
theorem w2_arg4 : W2 m ρ c (Proc.devRef .tc main_arg4) = (m ((c : Thread nD τ).loc main_arg4)) :=
  (W2_of_ne m ρ c main_arg4 (by decide)).trans (w1_arg4 m ρ c)
theorem w2_arg5 : W2 m ρ c (Proc.devRef .tc main_arg5) = (m ((c : Thread nD τ).loc main_arg5)) :=
  (W2_of_ne m ρ c main_arg5 (by decide)).trans (w1_arg5 m ρ c)
theorem w2_arg6 : W2 m ρ c (Proc.devRef .tc main_arg6) = (m ((c : Thread nD τ).loc main_arg6)) :=
  (W2_of_ne m ρ c main_arg6 (by decide)).trans (w1_arg6 m ρ c)
theorem w2_arg7 : W2 m ρ c (Proc.devRef .tc main_arg7) = (m ((c : Thread nD τ).loc main_arg7)) :=
  (W2_of_ne m ρ c main_arg7 (by decide)).trans (w1_arg7 m ρ c)
theorem w2_arg8 : W2 m ρ c (Proc.devRef .tc main_arg8) = (m ((c : Thread nD τ).loc main_arg8)) :=
  (W2_of_ne m ρ c main_arg8 (by decide)).trans (w1_arg8 m ρ c)
theorem w2_arg9 : W2 m ρ c (Proc.devRef .tc main_arg9) = (m ((c : Thread nD τ).loc main_arg9)) :=
  (W2_of_ne m ρ c main_arg9 (by decide)).trans (w1_arg9 m ρ c)

/-! ## The first aggregation -/

/-- The aggregate of the first layer: Σ over the edges into a node of weight · h₁[source]. -/
theorem w3_v41 : W3 m ρ c (Proc.devRef .tc main_v41) = val_main_v39 (F := Ideal) (m ((c : Thread nD τ).loc main_arg0)) (m ((c : Thread nD τ).loc main_arg1)) (m ((c : Thread nD τ).loc main_arg2)) := by
  dsimp only [W3, hostOps1]
  after_results_simp
  rw [w2_v29, w2_v1, w2_v3, w2_v28]
  rfl

/-- The self-loop term of the first layer: h₁ / deg. -/
theorem w3_v43 : W3 m ρ c (Proc.devRef .tc main_v43) = val_main_v43 (F := Ideal) (m ((c : Thread nD τ).loc main_arg0)) (m ((c : Thread nD τ).loc main_arg1)) (m ((c : Thread nD τ).loc main_arg2)) := by
  dsimp only [W3, hostOps1]
  after_results_simp
  rw [w2_v29, w2_v12]
  rfl

/-- The first bias, laid as one row. -/
theorem w3_v44 : W3 m ρ c (Proc.devRef .tc main_v44) = val_main_v45 (F := Ideal) (m ((c : Thread nD τ).loc main_arg3)) := by
  dsimp only [W3, hostOps1]
  after_results_simp
  rw [w2_arg3]
  exact reshape_row _ _ _

theorem w3_v1 : W3 m ρ c (Proc.devRef .tc main_v1) = val_main_v1 (F := Ideal) (m ((c : Thread nD τ).loc main_arg1)) := by
  dsimp only [W3, hostOps1]
  after_results_simp
  exact w2_v1 m ρ c
theorem w3_v3 : W3 m ρ c (Proc.devRef .tc main_v3) = val_main_v3 (F := Ideal) (m ((c : Thread nD τ).loc main_arg1)) := by
  dsimp only [W3, hostOps1]
  after_results_simp
  exact w2_v3 m ρ c
theorem w3_v12 : W3 m ρ c (Proc.devRef .tc main_v12) = val_main_v41 (F := Ideal) (m ((c : Thread nD τ).loc main_arg1)) := by
  dsimp only [W3, hostOps1]
  after_results_simp
  exact w2_v12 m ρ c
theorem w3_v28 : W3 m ρ c (Proc.devRef .tc main_v28) = val_main_v34 (F := Ideal) (m ((c : Thread nD τ).loc main_arg1)) := by
  dsimp only [W3, hostOps1]
  after_results_simp
  exact w2_v28 m ρ c
theorem w3_arg4 : W3 m ρ c (Proc.devRef .tc main_arg4) = (m ((c : Thread nD τ).loc main_arg4)) := by
  dsimp only [W3, hostOps1]
  after_results_simp
  exact w2_arg4 m ρ c
theorem w3_arg5 : W3 m ρ c (Proc.devRef .tc main_arg5) = (m ((c : Thread nD τ).loc main_arg5)) := by
  dsimp only [W3, hostOps1]
  after_results_simp
  exact w2_arg5 m ρ c
theorem w3_arg6 : W3 m ρ c (Proc.devRef .tc main_arg6) = (m ((c : Thread nD τ).loc main_arg6)) := by
  dsimp only [W3, hostOps1]
  after_results_simp
  exact w2_arg6 m ρ c
theorem w3_arg7 : W3 m ρ c (Proc.devRef .tc main_arg7) = (m ((c : Thread nD τ).loc main_arg7)) := by
  dsimp only [W3, hostOps1]
  after_results_simp
  exact w2_arg7 m ρ c
theorem w3_arg8 : W3 m ρ c (Proc.devRef .tc main_arg8) = (m ((c : Thread nD τ).loc main_arg8)) := by
  dsimp only [W3, hostOps1]
  after_results_simp
  exact w2_arg8 m ρ c
theorem w3_arg9 : W3 m ρ c (Proc.devRef .tc main_arg9) = (m ((c : Thread nD τ).loc main_arg9)) := by
  dsimp only [W3, hostOps1]
  after_results_simp
  exact w2_arg9 m ρ c

/-! ## The second region: h₂ = max(aggregate + self-loop + bias, 0) · W2 -/

theorem w4_v45 : W4 m ρ c (Proc.devRef .tc main_v45) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 4).trans ((final1 (V3 m ρ) Cert.ReferenceIdeal.Gen.bcast_S1x64_S100000x64_0_1 c).trans ?_)
  show propagate (M := 100000) (K := 64) (N := 64) (hidden Cert.ReferenceIdeal.Gen.bcast_S1x64_S100000x64_0_1 h0 (W3 m ρ c (Proc.devRef .tc main_v41)) (W3 m ρ c (Proc.devRef .tc main_v43))
    (W3 m ρ c (Proc.devRef .tc main_v44))) (W3 m ρ c (Proc.devRef .tc main_arg4)) = _
  rw [w3_v41, w3_v43, w3_v44, w3_arg4]
  rfl

theorem w4_v1 : W4 m ρ c (Proc.devRef .tc main_v1) = val_main_v1 (F := Ideal) (m ((c : Thread nD τ).loc main_arg1)) :=
  (W4_of_ne m ρ c main_v1 (by decide)).trans (w3_v1 m ρ c)
theorem w4_v3 : W4 m ρ c (Proc.devRef .tc main_v3) = val_main_v3 (F := Ideal) (m ((c : Thread nD τ).loc main_arg1)) :=
  (W4_of_ne m ρ c main_v3 (by decide)).trans (w3_v3 m ρ c)
theorem w4_v12 : W4 m ρ c (Proc.devRef .tc main_v12) = val_main_v41 (F := Ideal) (m ((c : Thread nD τ).loc main_arg1)) :=
  (W4_of_ne m ρ c main_v12 (by decide)).trans (w3_v12 m ρ c)
theorem w4_v28 : W4 m ρ c (Proc.devRef .tc main_v28) = val_main_v34 (F := Ideal) (m ((c : Thread nD τ).loc main_arg1)) :=
  (W4_of_ne m ρ c main_v28 (by decide)).trans (w3_v28 m ρ c)
theorem w4_arg5 : W4 m ρ c (Proc.devRef .tc main_arg5) = (m ((c : Thread nD τ).loc main_arg5)) :=
  (W4_of_ne m ρ c main_arg5 (by decide)).trans (w3_arg5 m ρ c)
theorem w4_arg6 : W4 m ρ c (Proc.devRef .tc main_arg6) = (m ((c : Thread nD τ).loc main_arg6)) :=
  (W4_of_ne m ρ c main_arg6 (by decide)).trans (w3_arg6 m ρ c)
theorem w4_arg7 : W4 m ρ c (Proc.devRef .tc main_arg7) = (m ((c : Thread nD τ).loc main_arg7)) :=
  (W4_of_ne m ρ c main_arg7 (by decide)).trans (w3_arg7 m ρ c)
theorem w4_arg8 : W4 m ρ c (Proc.devRef .tc main_arg8) = (m ((c : Thread nD τ).loc main_arg8)) :=
  (W4_of_ne m ρ c main_arg8 (by decide)).trans (w3_arg8 m ρ c)
theorem w4_arg9 : W4 m ρ c (Proc.devRef .tc main_arg9) = (m ((c : Thread nD τ).loc main_arg9)) :=
  (W4_of_ne m ρ c main_arg9 (by decide)).trans (w3_arg9 m ρ c)

/-! ## The second aggregation -/

theorem w5_v57 : W5 m ρ c (Proc.devRef .tc main_v57) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W5, hostOps2]
  after_results_simp
  rw [w4_v45, w4_v1, w4_v3, w4_v28]
  rfl

theorem w5_v59 : W5 m ρ c (Proc.devRef .tc main_v59) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W5, hostOps2]
  after_results_simp
  rw [w4_v45, w4_v12]
  rfl

theorem w5_v61 : W5 m ρ c (Proc.devRef .tc main_v61) = val_main_v83 (F := Ideal) (m ((c : Thread nD τ).loc main_arg5)) := by
  dsimp only [W5, hostOps2]
  after_results_simp
  rw [w4_arg5]
  exact reshape_row _ _ _

/-- The two last weight tables side by side: [Wmu | Wlv]. -/
def wcat : FVec Ideal S64x64 .f32 :=
  concatenate S64x64 1 [⟨S64x32, (m ((c : Thread nD τ).loc main_arg6))⟩, ⟨S64x32, (m ((c : Thread nD τ).loc main_arg8))⟩] Gen.concatenates_S64x32_S64x32_S64x64_d1

theorem w5_v60 : W5 m ρ c (Proc.devRef .tc main_v60) = wcat m c := by
  dsimp only [W5, hostOps2]
  simp only [Cert.JoinTwo.cat2_fold]
  after_results_simp
  rw [w4_arg6, w4_arg8]
  rfl

theorem w5_v1 : W5 m ρ c (Proc.devRef .tc main_v1) = val_main_v1 (F := Ideal) (m ((c : Thread nD τ).loc main_arg1)) := by
  dsimp only [W5, hostOps2]
  after_results_simp
  exact w4_v1 m ρ c
theorem w5_v3 : W5 m ρ c (Proc.devRef .tc main_v3) = val_main_v3 (F := Ideal) (m ((c : Thread nD τ).loc main_arg1)) := by
  dsimp only [W5, hostOps2]
  after_results_simp
  exact w4_v3 m ρ c
theorem w5_v12 : W5 m ρ c (Proc.devRef .tc main_v12) = val_main_v41 (F := Ideal) (m ((c : Thread nD τ).loc main_arg1)) := by
  dsimp only [W5, hostOps2]
  after_results_simp
  exact w4_v12 m ρ c
theorem w5_v28 : W5 m ρ c (Proc.devRef .tc main_v28) = val_main_v34 (F := Ideal) (m ((c : Thread nD τ).loc main_arg1)) := by
  dsimp only [W5, hostOps2]
  after_results_simp
  exact w4_v28 m ρ c
theorem w5_arg7 : W5 m ρ c (Proc.devRef .tc main_arg7) = (m ((c : Thread nD τ).loc main_arg7)) := by
  dsimp only [W5, hostOps2]
  after_results_simp
  exact w4_arg7 m ρ c
theorem w5_arg9 : W5 m ρ c (Proc.devRef .tc main_arg9) = (m ((c : Thread nD τ).loc main_arg9)) := by
  dsimp only [W5, hostOps2]
  after_results_simp
  exact w4_arg9 m ρ c

/-! ## The third region: [mu | logvar] before aggregation = max(aggregate + self-loop + bias, 0) · [Wmu | Wlv] -/

/-- The product of the second hidden activation (the reference's stage) with the joined table. -/
def hcat : FVec Ideal S100000x64 .f32 :=
  propagate (M := 100000) (K := 64) (N := 64) (val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (wcat m c)

theorem w6_v62 : W6 m ρ c (Proc.devRef .tc main_v62) = hcat m c := by
  refine (W6_arr m ρ c 4).trans ((final2 (V5 m ρ) Cert.ReferenceIdeal.Gen.bcast_S1x64_S100000x64_0_1 c).trans ?_)
  show propagate (M := 100000) (K := 64) (N := 64) (hidden Cert.ReferenceIdeal.Gen.bcast_S1x64_S100000x64_0_1 h0 (W5 m ρ c (Proc.devRef .tc main_v57)) (W5 m ρ c (Proc.devRef .tc main_v59))
    (W5 m ρ c (Proc.devRef .tc main_v61))) (W5 m ρ c (Proc.devRef .tc main_v60)) = _
  rw [w5_v57, w5_v59, w5_v61, w5_v60]
  rfl

theorem w6_v1 : W6 m ρ c (Proc.devRef .tc main_v1) = val_main_v1 (F := Ideal) (m ((c : Thread nD τ).loc main_arg1)) :=
  (W6_of_ne m ρ c main_v1 (by decide)).trans (w5_v1 m ρ c)
theorem w6_v3 : W6 m ρ c (Proc.devRef .tc main_v3) = val_main_v3 (F := Ideal) (m ((c : Thread nD τ).loc main_arg1)) :=
  (W6_of_ne m ρ c main_v3 (by decide)).trans (w5_v3 m ρ c)
theorem w6_v12 : W6 m ρ c (Proc.devRef .tc main_v12) = val_main_v41 (F := Ideal) (m ((c : Thread nD τ).loc main_arg1)) :=
  (W6_of_ne m ρ c main_v12 (by decide)).trans (w5_v12 m ρ c)
theorem w6_v28 : W6 m ρ c (Proc.devRef .tc main_v28) = val_main_v34 (F := Ideal) (m ((c : Thread nD τ).loc main_arg1)) :=
  (W6_of_ne m ρ c main_v28 (by decide)).trans (w5_v28 m ρ c)
theorem w6_arg7 : W6 m ρ c (Proc.devRef .tc main_arg7) = (m ((c : Thread nD τ).loc main_arg7)) :=
  (W6_of_ne m ρ c main_arg7 (by decide)).trans (w5_arg7 m ρ c)
theorem w6_arg9 : W6 m ρ c (Proc.devRef .tc main_arg9) = (m ((c : Thread nD τ).loc main_arg9)) :=
  (W6_of_ne m ρ c main_arg9 (by decide)).trans (w5_arg9 m ρ c)

/-! ## The last aggregation, on the joined table -/

/-- The aggregate of the joined table: Σ over the edges into a node of weight · [mu | logvar][source]. -/
def aggcat : FVec Ideal S100000x64 .f32 :=
  Host.scatterAdd (F := Ideal) scatter_S100000x64_S1600000x1_S1600000x64_1_0_0_1 (val_main_v37 (F := Ideal))
    (val_main_v38 (F := Ideal) (m ((c : Thread nD τ).loc main_arg1)))
    (mulf (Host.gather gather_S100000x64_S1600000x1_S1600000x64_1_0_n_n_0_1_164 (hcat m c) (val_main_v32 (F := Ideal) (m ((c : Thread nD τ).loc main_arg1))))
      (val_main_v35 (F := Ideal) (m ((c : Thread nD τ).loc main_arg1))))

/-- The self-loop term of the joined table. -/
def selfcat : FVec Ideal S100000x64 .f32 := mulf (hcat m c) (val_main_v42 (F := Ideal) (m ((c : Thread nD τ).loc main_arg1)))

/-- The two last biases end to end, laid as one row. -/
def brow : FVec Ideal S1x64 .f32 :=
  shapeCast S1x64 (concatenate S64 0 [⟨S32, (m ((c : Thread nD τ).loc main_arg7))⟩, ⟨S32, (m ((c : Thread nD τ).loc main_arg9))⟩] Gen.concatenates_S32_S32_S64_d0) Gen.shapeCasts_S64_S1x64

theorem w7_v74 : W7 m ρ c (Proc.devRef .tc main_v74) = aggcat m c := by
  dsimp only [W7, hostOps3]
  after_results_simp
  rw [w6_v62, w6_v1, w6_v3, w6_v28]
  rfl

theorem w7_v76 : W7 m ρ c (Proc.devRef .tc main_v76) = selfcat m c := by
  dsimp only [W7, hostOps3]
  after_results_simp
  rw [w6_v62, w6_v12]
  rfl

theorem w7_v78 : W7 m ρ c (Proc.devRef .tc main_v78) = brow m c := by
  dsimp only [W7, hostOps3]
  simp only [Cert.JoinTwo.cat2_fold]
  after_results_simp
  rw [w6_arg7, w6_arg9]
  rfl

/-! ## The last region and the two slices -/

/-- [mu | logvar]: aggregate + self-loop + bias on the joined table. -/
def outcat : FVec Ideal S100000x64 .f32 := combined Cert.ReferenceIdeal.Gen.bcast_S1x64_S100000x64_0_1 (aggcat m c) (selfcat m c) (brow m c)

theorem w8_v79 : W8 m ρ c (Proc.devRef .tc main_v79) = outcat m c := by
  refine (W8_arr m ρ c 3).trans ((final3 (V7 m ρ) Cert.ReferenceIdeal.Gen.bcast_S1x64_S100000x64_0_1 c).trans ?_)
  show combined Cert.ReferenceIdeal.Gen.bcast_S1x64_S100000x64_0_1 (W7 m ρ c (Proc.devRef .tc main_v74)) (W7 m ρ c (Proc.devRef .tc main_v76)) (W7 m ρ c (Proc.devRef .tc main_v78)) = _
  rw [w7_v74, w7_v76, w7_v78]
  rfl

/-- The first result: the left 32 columns of the joined output. -/
theorem w9_v80 : W9 m ρ c (Proc.devRef .tc main_v80)
    = extractStridedSlice S100000x32 ![0, 0] (outcat m c) Gen.slices_S100000x64_S100000x32_0_0 := by
  dsimp only [W9, hostOps4]
  after_results_simp
  rw [w8_v79]

/-- The second result: the right 32 columns. -/
theorem w9_v81 : W9 m ρ c (Proc.devRef .tc main_v81)
    = extractStridedSlice S100000x32 ![0, 32] (outcat m c) Gen.slices_S100000x64_S100000x32_0_32 := by
  dsimp only [W9, hostOps4]
  after_results_simp
  rw [w8_v79]

end Cert.KernelIdeal.Stages

end
-- ==== Proof.LibRowGatherScatter.lean ====
/-
  Rows gathered and rows scattered, read at one element, over any sizes.

  A table `x` of R rows and C columns; N index words. The row gather makes the N × C table whose row n is row
  `idx n` of x, the word read as a signed integer and clamped into [0, R − 1]. The accumulating row scatter adds row n
  of an N × C table of updates to row `idx n` of the operand, the word read signed and NOT clamped: a row whose index
  is outside the operand is dropped. On the extended reals the scatter's result at (r, c) is the operand there plus the
  sum, over the rows n whose index is r, of the update at (n, c); no order of accumulation is left in it. Composed: the
  scatter of weighted gathered rows at (r, c) is a sum over n of weight · x (clamped source row of n, c) — column c of
  the result only ever meets column c of x.
-/
import Idealize.ShloMosaic.PureOps.Ideal
import Idealize.ShloMosaic.Lib.ValueIdx
import Idealize.ShloMosaic.Lib.Pipeline.Value

noncomputable section

open scoped BigOperators

namespace Cert.LibRowGatherScatter

open Idealize.ShloMosaic Idealize.ShloMosaic.ValueIdx

/-- The row an index word names for a gather out of R rows: read signed, clamped into [0, R − 1]. -/
def clampRow (R : Nat) (hR : 0 < R) {w : Nat} (b : BitVec w) : Fin R := ⟨min b.toInt.toNat (R - 1), by omega⟩

section Gather

variable {α : Type} {R N C : Nat}

/-- The dimension numbers of a row gather, for an operand [R, C], start indices [N, 1] and a result [N, C]. -/
abbrev rowGatherDims (R N C : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

theorem gather_rowDims_apply (hR : 0 < R)
    (wf : GatherDims.WF ⟨2, ![R, C]⟩ ⟨2, ![N, 1]⟩ ⟨2, ![N, C]⟩ [1] [0] [] [0] [] 1 ![1, C]) {w : Nat}
    (x : (⟨2, ![R, C]⟩ : Shape).Idx → α) (idx : IVec ⟨2, ![N, 1]⟩ w) (n : Fin N) (c : Fin C) :
    Host.gather (rowGatherDims R N C wf) x idx (ix2 n c) = x (ix2 (clampRow R hR (idx (ix2 n (0 : Fin 1)))) c) := by
  unfold Host.gather
  congr 1
  funext a
  refine Fin.ext ?_
  have e0 : ((rowGatherDims R N C wf).operandIdx (ix2 n c) idx 0).val = min (idx (ix2 n (0 : Fin 1))).toInt.toNat (R - 1) := by
    show (rowGatherDims R N C wf).start (ix2 n c) idx 0 + (rowGatherDims R N C wf).batchCoord (ix2 n c) 0
      + (rowGatherDims R N C wf).offCoord (ix2 n c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R N C wf).startIndexMap from List.mem_singleton.mpr rfl)]
    have hsi : (rowGatherDims R N C wf).siIdx (ix2 n c) ⟨List.idxOf (0 : Fin 2) (rowGatherDims R N C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  have e1 : ((rowGatherDims R N C wf).operandIdx (ix2 n c) idx 1).val = c.val := by
    show (rowGatherDims R N C wf).start (ix2 n c) idx 1 + (rowGatherDims R N C wf).batchCoord (ix2 n c) 1
      + (rowGatherDims R N C wf).offCoord (ix2 n c) 1 = _
    rw [GatherDims.batchCoord_eq_zero _ _ _ List.not_mem_nil]
    have hs : (rowGatherDims R N C wf).start (ix2 n c) idx 1 = 0 := by
      unfold GatherDims.start
      rw [dif_neg (show (1 : Fin 2) ∉ (rowGatherDims R N C wf).startIndexMap from
        (by decide : (1 : Fin 2) ∉ ([0] : List (Fin 2))))]
    rw [hs]
    simp only [Nat.add_zero, Nat.zero_add]
    unfold GatherDims.offCoord
    rw [dif_pos (show (1 : Fin 2) ∈ (rowGatherDims R N C wf).sKept from
      List.mem_filter.2 ⟨List.mem_finRange _, (by decide : decide ((1 : Fin 2) ∉ (([0] : List (Fin 2)) ++ [])) = true)⟩)]
    rfl
  match a with
  | ⟨0, _⟩ => exact e0
  | ⟨1, _⟩ => exact e1

/-- THE ROW GATHER READ AT (n, c): x at (the clamped row of word n, c). -/
theorem gather_rows (g : GatherDims ⟨2, ![R, C]⟩ ⟨2, ![N, 1]⟩ ⟨2, ![N, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C]) (hR : 0 < R) {w : Nat}
    (x : (⟨2, ![R, C]⟩ : Shape).Idx → α) (idx : IVec ⟨2, ![N, 1]⟩ w) (n : Fin N) (c : Fin C) :
    Host.gather g x idx (ix2 n c) = x (ix2 (clampRow R hR (idx (ix2 n (0 : Fin 1)))) c) := by
  obtain ⟨od, cd, ob, sb, sm, iv, ss, wf⟩ := g
  simp only at h1 h2 h3 h4 h5 h6 h7
  subst h1 h2 h3 h4 h5 h6 h7
  exact gather_rowDims_apply hR wf x idx n c

end Gather

section Scatter

variable {R N C : Nat} (d : ScatterDims ⟨2, ![R, C]⟩ ⟨2, ![N, 1]⟩ ⟨2, ![N, C]⟩)

/-- Where update element (n, c') lands: at (r, c) exactly when row n's index word, read signed, is r and c' = c. -/
theorem resultIdx?_rows (h1 : d.updateWindowDims = [1]) (h2 : d.insertedWindowDims = [0])
    (h3 : d.scatterDimsToOperandDims = [0]) (h4 : d.indexVectorDim = 1) {w : Nat}
    (idx : IVec ⟨2, ![N, 1]⟩ w) (n : Fin N) (c' : Fin C) (r : Fin R) (c : Fin C) :
    d.resultIdx? (ix2 n c') idx = some (ix2 r c) ↔ (idx (ix2 n (0 : Fin 1))).toInt = (r.val : ℤ) ∧ c' = c := by
  obtain ⟨uw, iw, sd, iv, wf⟩ := d
  simp only at h1 h2 h3 h4
  subst h1 h2 h3 h4
  have hs0 : ScatterDims.start ⟨[1], [0], [0], 1, wf⟩ (ix2 n c') idx 0 = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hs1 : ScatterDims.start ⟨[1], [0], [0], 1, wf⟩ (ix2 n c') idx 1 = 0 := by
    unfold ScatterDims.start
    rw [dif_neg (show (1 : Fin 2) ∉ ([0] : List (Fin 2)) by decide)]
  have hw0 : ScatterDims.window ⟨[1], [0], [0], 1, wf⟩ (ix2 n c') 0 = 0 := by
    unfold ScatterDims.window
    rw [dif_neg (show (0 : Fin 2) ∉ (⟨2, ![R, C]⟩ : Shape).kept [0] from
      fun h => (of_decide_eq_true (List.mem_filter.1 h).2) (List.mem_singleton.mpr rfl))]
  have hw1 : ScatterDims.window ⟨[1], [0], [0], 1, wf⟩ (ix2 n c') 1 = c'.val := by
    unfold ScatterDims.window
    rw [dif_pos (show (1 : Fin 2) ∈ (⟨2, ![R, C]⟩ : Shape).kept [0] from
      List.mem_filter.2 ⟨List.mem_finRange _, (by decide : decide ((1 : Fin 2) ∉ ([0] : List (Fin 2))) = true)⟩)]
    rfl
  unfold ScatterDims.resultIdx?
  simp only [Fin.forall_fin_two, hs0, hs1, hw0, hw1]
  have hc0 : (ix2 r c (0 : Fin 2)) = r := rfl
  have hc1 : (ix2 r c (1 : Fin 2)) = c := rfl
  have hz0 : ((![R, C] : Fin 2 → ℕ) 0) = R := rfl
  have hz1 : ((![R, C] : Fin 2 → ℕ) 1) = C := rfl
  have hr := r.isLt
  have hc := c.isLt
  have hc' := c'.isLt
  by_cases hcond : ((0 ≤ (idx (ix2 n (0 : Fin 1))).toInt + ((0 : ℕ) : ℤ) ∧ (idx (ix2 n (0 : Fin 1))).toInt + ((0 : ℕ) : ℤ) < (((![R, C] : Fin 2 → ℕ) 0 : ℕ) : ℤ)) ∧
            0 ≤ (0 : ℤ) + ((c'.val : ℕ) : ℤ) ∧ (0 : ℤ) + ((c'.val : ℕ) : ℤ) < (((![R, C] : Fin 2 → ℕ) 1 : ℕ) : ℤ))
  · rw [dif_pos hcond]
    simp only [Option.some.injEq, funext_iff, Fin.forall_fin_two, Fin.ext_iff, hs0, hs1, hw0, hw1, hc0, hc1]
    rw [hz0, hz1] at hcond
    constructor
    · rintro ⟨h0, h1⟩
      exact ⟨by omega, by omega⟩
    · rintro ⟨h0, h1⟩
      exact ⟨by omega, by omega⟩
  · rw [dif_neg hcond]
    rw [hz0, hz1] at hcond
    constructor
    · intro h; exact absurd h (by simp)
    · rintro ⟨h0, h1⟩
      exact absurd ⟨⟨by omega, by omega⟩, by omega, by omega⟩ hcond

/-- THE ROW SCATTER READ AT (r, c): the operand there plus the updates (n, c) of the rows n whose index is r. -/
theorem scatterAdd_rows (h1 : d.updateWindowDims = [1]) (h2 : d.insertedWindowDims = [0])
    (h3 : d.scatterDimsToOperandDims = [0]) (h4 : d.indexVectorDim = 1) {w : Nat}
    (x : FVec Ideal ⟨2, ![R, C]⟩ .f32) (idx : IVec ⟨2, ![N, 1]⟩ w)
    (upd : FVec Ideal ⟨2, ![N, C]⟩ .f32) (r : Fin R) (c : Fin C) :
    Host.scatterAdd (F := Ideal) d x idx upd (ix2 r c)
      = x (ix2 r c) + ∑ n : Fin N, (if (idx (ix2 n (0 : Fin 1))).toInt = (r.val : ℤ) then upd (ix2 n c) else 0) := by
  simp only [Host.scatterAdd, Ideal.hostScatterAdd_def, Ideal.hostScatterAdd]
  refine congrArg (x (ix2 r c) + ·) ?_
  rw [Finset.sum_filter, sum_idx2]
  refine Finset.sum_congr rfl fun n _ => ?_
  simp only [resultIdx?_rows d h1 h2 h3 h4]
  by_cases hA : (idx (ix2 n (0 : Fin 1))).toInt = (r.val : ℤ)
  · simp only [hA, true_and, if_true]
    rw [Finset.sum_ite_eq' Finset.univ c (fun c' => upd (ix2 n c')), if_pos (Finset.mem_univ c)]
  · simp only [hA, false_and, if_false, Finset.sum_const_zero]

end Scatter

section Propagate

variable {R N C : Nat} (d : ScatterDims ⟨2, ![R, C]⟩ ⟨2, ![N, 1]⟩ ⟨2, ![N, C]⟩)
  (g : GatherDims ⟨2, ![R, C]⟩ ⟨2, ![N, 1]⟩ ⟨2, ![N, C]⟩)

/-- The scatter of weighted gathered rows at (r, c): the operand there plus, over the rows n sent to r, weight (n, c)
    times x at (the clamped source row of n, c). -/
theorem scatter_mul_gather (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C]) (hR : 0 < R) {w w' : Nat}
    (z x : FVec Ideal ⟨2, ![R, C]⟩ .f32) (wt : FVec Ideal ⟨2, ![N, C]⟩ .f32)
    (idxD : IVec ⟨2, ![N, 1]⟩ w) (idxS : IVec ⟨2, ![N, 1]⟩ w') (r : Fin R) (c : Fin C) :
    Host.scatterAdd (F := Ideal) d z idxD (mulf wt (Host.gather g x idxS)) (ix2 r c)
      = z (ix2 r c) + ∑ n : Fin N, (if (idxD (ix2 n (0 : Fin 1))).toInt = (r.val : ℤ)
          then wt (ix2 n c) * x (ix2 (clampRow R hR (idxS (ix2 n (0 : Fin 1)))) c) else 0) := by
  rw [scatterAdd_rows d h1 h2 h3 h4]
  refine congrArg (z (ix2 r c) + ·) (Finset.sum_congr rfl fun n _ => ?_)
  rw [mulf_apply, gather_rows g k1 k2 k3 k4 k5 k6 k7 hR]

end Propagate

section Widths

variable {R N C C' : Nat}

/-- A per-row number broadcast across C columns, read at (n, c): the number of row n. -/
theorem bcast_col_apply {α : Type} (hN : N ≠ 1) (v : (⟨1, ![N]⟩ : Shape).Idx → α)
    (h3 : (⟨1, ![N]⟩ : Shape).BroadcastsInDim ⟨2, ![N, 1]⟩ ![0])
    (h4 : (⟨2, ![N, 1]⟩ : Shape).BroadcastsInDim ⟨2, ![N, C]⟩ ![0, 1]) (n : Fin N) (c : Fin C) :
    broadcastInDim ⟨2, ![N, C]⟩ ![0, 1] h4 (broadcastInDim ⟨2, ![N, 1]⟩ ![0] h3 v) (ix2 n c) = v (ix1 n) := by
  refine (broadcastInDim_apply _ h4 _ (ix2 n c) (ix2 n (0 : Fin 1)) ?_).trans ?_
  · intro a
    match a with
    | ⟨0, _⟩ => show n.val = if N = 1 then 0 else n.val; rw [if_neg hN]
    | ⟨1, _⟩ => show (0 : Fin 1).val = if (1 : Nat) = 1 then 0 else c.val; rw [if_pos rfl]; rfl
  refine broadcastInDim_apply _ h3 v (ix2 n (0 : Fin 1)) (ix1 n) ?_
  intro a
  match a with
  | ⟨0, _⟩ => show n.val = if N = 1 then 0 else n.val; rw [if_neg hN]

/-- TWO WIDTHS, ONE COLUMN EACH: the scatter of weighted gathered rows over tables of C columns, read at column c,
    and the same over tables of C' columns, read at column c', agree when the operands agree at those two columns —
    the index lists being the same. A propagation of a wide table is, column by column, the propagation of its
    columns. -/
theorem scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf wt (Host.gather g x idxS)) (ix2 r c)
      = Host.scatterAdd (F := Ideal) d' z' idxD (mulf wt' (Host.gather g' x' idxS)) (ix2 r c') := by
  rw [scatter_mul_gather d g h1 h2 h3 h4 k1 k2 k3 k4 k5 k6 k7 hR,
    scatter_mul_gather d' g' h1' h2' h3' h4' k1' k2' k3' k4' k5' k6' k7' hR, hz]
  refine congrArg (z' (ix2 r c') + ·) (Finset.sum_congr rfl fun n _ => ?_)
  rw [hw n, hx]

/-- The same under a negation: the scaled Laplacian's sign. -/
theorem neg_scatter_mul_gather_congr
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.negf (F := Ideal) (Host.scatterAdd (F := Ideal) d z idxD (mulf wt (Host.gather g x idxS))) (ix2 r c)
      = Host.negf (F := Ideal) (Host.scatterAdd (F := Ideal) d' z' idxD (mulf wt' (Host.gather g' x' idxS))) (ix2 r c') := by
  show -(Host.scatterAdd (F := Ideal) d z idxD (mulf wt (Host.gather g x idxS)) (ix2 r c))
    = -(Host.scatterAdd (F := Ideal) d' z' idxD (mulf wt' (Host.gather g' x' idxS)) (ix2 r c'))
  rw [scatter_mul_gather_congr d g d' g' h1 h2 h3 h4 k1 k2 k3 k4 k5 k6 k7 h1' h2' h3' h4' k1' k2' k3' k4' k5' k6' k7' hR
    z x wt z' x' wt' idxD idxS r c c' hz hw hx]

end Widths

end Cert.LibRowGatherScatter

end
-- ==== Proof.LibGatherFirst.lean ====
/-
  The accumulating row scatter of gathered rows times weights, with the gathered rows written as the FIRST factor
  (as jax lowers h[src] * w): over tables of two widths C and C', read at one column each, the two scatters agree
  when the operands agree at those two columns — the propagation of a wide table is, column by column, the
  propagation of its columns. Any sizes; on the extended reals, where the product commutes with no side condition.
-/
import Idealize.ShloMosaic.PureOps.Ideal
import Idealize.ShloMosaic.Lib.ValueIdx
import Idealize.ShloMosaic.Lib.Pipeline.Value
import proofs.«141413_j55662776156338_2_alg».proof.Proof.LibRowGatherScatter

noncomputable section

namespace Cert.GatherFirst

open Idealize.ShloMosaic Idealize.ShloMosaic.ValueIdx Cert.LibRowGatherScatter

/-- The scatter of gathered rows times weights, over tables of two widths, one column each: equal when the operands
    agree at those two columns (the product written with the gathered rows first). -/
theorem scatter_gather_mul_congr {R N C C' : Nat}
    (d : ScatterDims ⟨2, ![R, C]⟩ ⟨2, ![N, 1]⟩ ⟨2, ![N, C]⟩) (g : GatherDims ⟨2, ![R, C]⟩ ⟨2, ![N, 1]⟩ ⟨2, ![N, C]⟩)
    (d' : ScatterDims ⟨2, ![R, C']⟩ ⟨2, ![N, 1]⟩ ⟨2, ![N, C']⟩) (g' : GatherDims ⟨2, ![R, C']⟩ ⟨2, ![N, 1]⟩ ⟨2, ![N, C']⟩)
    (h1 : d.updateWindowDims = [1]) (h2 : d.insertedWindowDims = [0])
    (h3 : d.scatterDimsToOperandDims = [0]) (h4 : d.indexVectorDim = 1)
    (k1 : g.offsetDims = [1]) (k2 : g.collapsedSliceDims = [0]) (k3 : g.operandBatchingDims = [])
    (k4 : g.startIndicesBatchingDims = []) (k5 : g.startIndexMap = [0]) (k6 : g.indexVectorDim = 1)
    (k7 : g.sliceSizes = ![1, C])
    (h1' : d'.updateWindowDims = [1]) (h2' : d'.insertedWindowDims = [0])
    (h3' : d'.scatterDimsToOperandDims = [0]) (h4' : d'.indexVectorDim = 1)
    (k1' : g'.offsetDims = [1]) (k2' : g'.collapsedSliceDims = [0]) (k3' : g'.operandBatchingDims = [])
    (k4' : g'.startIndicesBatchingDims = []) (k5' : g'.startIndexMap = [0]) (k6' : g'.indexVectorDim = 1)
    (k7' : g'.sliceSizes = ![1, C']) (hR : 0 < R) {w w' : Nat}
    (z x : FVec Ideal ⟨2, ![R, C]⟩ .f32) (wt : FVec Ideal ⟨2, ![N, C]⟩ .f32)
    (z' x' : FVec Ideal ⟨2, ![R, C']⟩ .f32) (wt' : FVec Ideal ⟨2, ![N, C']⟩ .f32)
    (idxD : IVec ⟨2, ![N, 1]⟩ w) (idxS : IVec ⟨2, ![N, 1]⟩ w') (r : Fin R) (c : Fin C) (c' : Fin C')
    (hz : z (ix2 r c) = z' (ix2 r c')) (hw : ∀ n : Fin N, wt (ix2 n c) = wt' (ix2 n c'))
    (hx : ∀ ρ : Fin R, x (ix2 ρ c) = x' (ix2 ρ c')) :
    Host.scatterAdd (F := Ideal) d z idxD (mulf (Host.gather g x idxS) wt) (ix2 r c)
      = Host.scatterAdd (F := Ideal) d' z' idxD (mulf (Host.gather g' x' idxS) wt') (ix2 r c') := by
  have e : mulf (Host.gather g x idxS) wt = mulf wt (Host.gather g x idxS) :=
    funext fun i => mul_comm (Host.gather g x idxS i : EReal) (wt i)
  have e' : mulf (Host.gather g' x' idxS) wt' = mulf wt' (Host.gather g' x' idxS) :=
    funext fun i => mul_comm (Host.gather g' x' idxS i : EReal) (wt' i)
  rw [e, e']
  exact scatter_mul_gather_congr d g d' g' h1 h2 h3 h4 k1 k2 k3 k4 k5 k6 k7 h1' h2' h3' h4' k1' k2' k3' k4' k5' k6' k7' hR
    z x wt z' x' wt' idxD idxS r c c' hz hw hx

end Cert.GatherFirst

end
-- ==== Proof.LastLayer.lean ====
/-
  The last layer, column by column. The kernel multiplies the second hidden activation H by the joined table
  [Wmu | Wlv], aggregates and combines the 64-column result once, and slices it in two; the reference does the same
  work on Wmu and on Wlv separately. Nothing mixes columns: column j of H · [Wmu | Wlv] is column j of H · Wmu for
  j < 32 and column j − 32 of H · Wlv otherwise; the aggregate Σ_{e → r} w_e · T[src e, j] reads column j of T only; the
  self-loop term and the bias act entry by entry. So each entry of each slice is the same sum of the same terms as
  the reference's — no law of arithmetic beyond commuting one product is used, and no finiteness.
-/
import proofs.«141413_j55662776156338_2_alg».proof.Proof.Stages
import proofs.«141413_j55662776156338_2_alg».proof.Proof.LibRowGatherScatter
import proofs.«141413_j55662776156338_2_alg».proof.Proof.LibGatherFirst
import proofs.«141413_j55662776156338_2_alg».proof.Proof.LibHostReads
import proofs.«141413_j55662776156338_2_alg».proof.Proof.LibHostLayout
import Idealize.ShloMosaic.Lib.ValueLayout

set_option maxRecDepth 16384

noncomputable section

namespace Cert.KernelIdeal.Stages

open Cert.KernelIdeal Cert.KernelIdeal.Gen Cert.KernelIdeal.Blocks Cert.KernelIdeal.BlockLaws Cert.BlockRows
open Cert.ReferenceIdeal.Read Cert.LibRowGatherScatter Cert.GatherFirst
open Idealize.ShloMosaic Idealize.ShloMosaic.TcCoe Idealize.ShloMosaic.ValueIdx Idealize.SL.Sem

/-- The combine read at an entry. -/
theorem combined_apply (h2 : S1x64.BroadcastsInDim S100000x64 ![0, 1]) (A S : FVec Ideal S100000x64 .f32)
    (B : FVec Ideal S1x64 .f32) (i : S100000x64.Idx) :
    combined h2 A S B i
      = FloatOps.addf (FloatOps.addf (A i) (S i)) (broadcastInDim S100000x64 ![0, 1] h2 B i) := rfl

variable (m : (ℓ : Loc nD τ sig) → Buf (Elt Ideal) ℓ) (c : Dev nD)

/-! ## The first result: the left half -/

/-- Column 0 + q of the joined weight table is column q of Wmu. -/
theorem wcat_mu (k : Fin 64) (q : Fin 32) : wcat m c (ix2 k (⟨0 + q.val, by have := q.isLt; omega⟩ : Fin 64)) = ((m ((c : Thread nD τ).loc main_arg6)) : FVec Ideal S64x32 .f32) (ix2 k q) := by
  unfold wcat
  refine concatenate_pair_apply_left (t := S64x64) (s₁ := S64x32) (s₂ := S64x32) (1 : Fin 2) _ _ _ (ix2 k (⟨0 + q.val, by have := q.isLt; omega⟩ : Fin 64)) rfl (ix2 k q) fun b => ?_
  match b with
  | ⟨0, _⟩ => rfl
  | ⟨1, _⟩ => show q.val = 0 + q.val; omega

/-- Column 0 + q of the joined product is column q of the reference's product with Wmu. -/
theorem hcat_mu (r : Fin 100000) (q : Fin 32) :
    hcat m c (ix2 r (⟨0 + q.val, by have := q.isLt; omega⟩ : Fin 64)) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q) := by
  refine (Cert.LibHostReads.dotGeneral_plain_apply 100000 64 64 (φ₁ := .f32) (φ₂ := .f32) none (val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (wcat m c) r (⟨0 + q.val, by have := q.isLt; omega⟩ : Fin 64)).trans ?_
  refine Eq.trans ?_ (Cert.LibHostReads.dotGeneral_plain_apply 100000 64 32 (φ₁ := .f32) (φ₂ := .f32) none (val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ((m ((c : Thread nD τ).loc main_arg6)) : FVec Ideal S64x32 .f32) r q).symm
  refine Finset.sum_congr rfl fun k _ => ?_
  rw [wcat_mu m c k q]

/-- Column 0 + q of the joined aggregate is column q of the reference's aggregate. -/
theorem aggcat_mu (r : Fin 100000) (q : Fin 32) :
    aggcat m c (ix2 r (⟨0 + q.val, by have := q.isLt; omega⟩ : Fin 64)) = val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q) := by
  unfold aggcat val_main_v115 val_main_v112 val_main_v109
  rw [show val_main_v114 (F := Ideal) (m ((c : Thread nD τ).loc main_arg1)) = val_main_v38 (F := Ideal) (m ((c : Thread nD τ).loc main_arg1)) from rfl,
    show val_main_v108 (F := Ideal) (m ((c : Thread nD τ).loc main_arg1)) = val_main_v32 (F := Ideal) (m ((c : Thread nD τ).loc main_arg1)) from rfl]
  refine scatter_gather_mul_congr _ _ _ _ rfl rfl rfl rfl rfl rfl rfl rfl rfl rfl rfl rfl rfl rfl rfl rfl rfl rfl rfl rfl rfl rfl
    (by decide) _ _ _ _ _ _ _ _ r (⟨0 + q.val, by have := q.isLt; omega⟩ : Fin 64) q ?_ (fun n => ?_) (fun r' => hcat_mu m c r' q)
  · exact (Cert.HostLayout.scalar_apply _ _ _).trans (Cert.HostLayout.scalar_apply _ _ _).symm
  · unfold val_main_v35 val_main_v34 val_main_v111 val_main_v110
    refine (bcast_col_apply (by decide) _ _ _ n _).trans (Eq.trans ?_ (bcast_col_apply (by decide) _ _ _ n q).symm)
    rfl

/-- The self-loop scale read at column 0 + q of 64 and at column q of 32: the same number, 1/deg of the row's node. -/
theorem dis_mu (r : Fin 100000) (q : Fin 32) :
    val_main_v42 (F := Ideal) (m ((c : Thread nD τ).loc main_arg1)) (ix2 r (⟨0 + q.val, by have := q.isLt; omega⟩ : Fin 64)) = val_main_v118 (F := Ideal) (m ((c : Thread nD τ).loc main_arg1)) (ix2 r q) := by
  unfold val_main_v42 val_main_v41 val_main_v118 val_main_v117
  refine (bcast_col_apply (by decide) _ _ _ r _).trans (Eq.trans ?_ (bcast_col_apply (by decide) _ _ _ r q).symm)
  rfl

/-- Column 0 + q of the joined self-loop term is column q of the reference's. -/
theorem selfcat_mu (r : Fin 100000) (q : Fin 32) :
    selfcat m c (ix2 r (⟨0 + q.val, by have := q.isLt; omega⟩ : Fin 64)) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q) := by
  unfold selfcat val_main_v119
  rw [mulf_apply, mulf_apply, hcat_mu m c r q, dis_mu m c r q]

/-- Entry 0 + q of the joined bias row, broadcast down the rows, is entry q of bmu. -/
theorem brow_mu (r : Fin 100000) (q : Fin 32) :
    broadcastInDim S100000x64 ![0, 1] Cert.ReferenceIdeal.Gen.bcast_S1x64_S100000x64_0_1 (brow m c) (ix2 r (⟨0 + q.val, by have := q.isLt; omega⟩ : Fin 64))
      = val_main_v122 (F := Ideal) (m ((c : Thread nD τ).loc main_arg7)) (ix2 r q) := by
  unfold val_main_v122 val_main_v121
  refine Eq.trans ?_ (Cert.HostLayout.biasRow_apply ((m ((c : Thread nD τ).loc main_arg7)) : FVec Ideal S32 .f32) _ _ r q).symm
  refine (broadcastInDim_apply _ Cert.ReferenceIdeal.Gen.bcast_S1x64_S100000x64_0_1 (brow m c) (ix2 r (⟨0 + q.val, by have := q.isLt; omega⟩ : Fin 64)) (ix2 (0 : Fin 1) (⟨0 + q.val, by have := q.isLt; omega⟩ : Fin 64)) fun a => ?_).trans ?_
  · match a with
    | ⟨0, _⟩ => show (0 : Fin 1).val = if (1 : Nat) = 1 then 0 else r.val; rw [if_pos rfl]; rfl
    | ⟨1, _⟩ => show 0 + q.val = if (64 : Nat) = 1 then 0 else 0 + q.val; rw [if_neg (by decide)]
  unfold brow
  refine (shapeCast_apply _ _ (ix2 (0 : Fin 1) (⟨0 + q.val, by have := q.isLt; omega⟩ : Fin 64)) (ix1 (⟨0 + q.val, by have := q.isLt; omega⟩ : Fin 64)) ?_).trans ?_
  · rw [Shape.rowMajor_val_two, Shape.rowMajor_val_one]
    show 0 + q.val = 0 * 64 + (0 + q.val)
    omega
  refine concatenate_pair_apply_left (t := S64) (s₁ := S32) (s₂ := S32) (0 : Fin 1) _ _ _ (ix1 (⟨0 + q.val, by have := q.isLt; omega⟩ : Fin 64)) rfl (ix1 q) fun b => ?_
  match b with
  | ⟨0, _⟩ => show q.val = 0 + q.val; omega

/-- THE FIRST RESULT is the reference's: the left 32 columns of the joined output are mu. -/
theorem out_mu :
    extractStridedSlice S100000x32 ![0, 0] (outcat m c) Gen.slices_S100000x64_S100000x32_0_0
      = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext j
  obtain ⟨r, q, rfl⟩ : ∃ (r : Fin 100000) (q : Fin 32), j = ix2 r q := ⟨j 0, j 1, eq_ix2 j⟩
  refine (extractStridedSlice_apply ![0, 0] (outcat m c) _ (ix2 r q) (ix2 r (⟨0 + q.val, by have := q.isLt; omega⟩ : Fin 64)) fun a => ?_).trans ?_
  · match a with
    | ⟨0, _⟩ => show r.val = 0 + r.val; omega
    | ⟨1, _⟩ => rfl
  rw [outcat, combined_apply, val_main_v123_apply, val_main_v120_apply]
  rw [aggcat_mu m c r q, selfcat_mu m c r q, brow_mu m c r q]

/-! ## The second result: the right half -/

/-- Column 32 + q of the joined weight table is column q of Wlv. -/
theorem wcat_lv (k : Fin 64) (q : Fin 32) : wcat m c (ix2 k (⟨32 + q.val, by have := q.isLt; omega⟩ : Fin 64)) = ((m ((c : Thread nD τ).loc main_arg8)) : FVec Ideal S64x32 .f32) (ix2 k q) := by
  unfold wcat
  refine concatenate_pair_apply_right (t := S64x64) (s₁ := S64x32) (s₂ := S64x32) (1 : Fin 2) _ _ _ (ix2 k (⟨32 + q.val, by have := q.isLt; omega⟩ : Fin 64)) rfl rfl (ix2 k q) (fun b hb => ?_) ?_
  · match b with
    | ⟨0, _⟩ => rfl
    | ⟨1, _⟩ => exact absurd rfl hb
  · show q.val + 32 = 32 + q.val; omega

/-- Column 32 + q of the joined product is column q of the reference's product with Wlv. -/
theorem hcat_lv (r : Fin 100000) (q : Fin 32) :
    hcat m c (ix2 r (⟨32 + q.val, by have := q.isLt; omega⟩ : Fin 64)) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix2 r q) := by
  refine (Cert.LibHostReads.dotGeneral_plain_apply 100000 64 64 (φ₁ := .f32) (φ₂ := .f32) none (val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (wcat m c) r (⟨32 + q.val, by have := q.isLt; omega⟩ : Fin 64)).trans ?_
  refine Eq.trans ?_ (Cert.LibHostReads.dotGeneral_plain_apply 100000 64 32 (φ₁ := .f32) (φ₂ := .f32) none (val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) ((m ((c : Thread nD τ).loc main_arg8)) : FVec Ideal S64x32 .f32) r q).symm
  refine Finset.sum_congr rfl fun k _ => ?_
  rw [wcat_lv m c k q]

/-- Column 32 + q of the joined aggregate is column q of the reference's aggregate. -/
theorem aggcat_lv (r : Fin 100000) (q : Fin 32) :
    aggcat m c (ix2 r (⟨32 + q.val, by have := q.isLt; omega⟩ : Fin 64)) = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix2 r q) := by
  unfold aggcat val_main_v152 val_main_v149 val_main_v146
  rw [show val_main_v151 (F := Ideal) (m ((c : Thread nD τ).loc main_arg1)) = val_main_v38 (F := Ideal) (m ((c : Thread nD τ).loc main_arg1)) from rfl,
    show val_main_v145 (F := Ideal) (m ((c : Thread nD τ).loc main_arg1)) = val_main_v32 (F := Ideal) (m ((c : Thread nD τ).loc main_arg1)) from rfl]
  refine scatter_gather_mul_congr _ _ _ _ rfl rfl rfl rfl rfl rfl rfl rfl rfl rfl rfl rfl rfl rfl rfl rfl rfl rfl rfl rfl rfl rfl
    (by decide) _ _ _ _ _ _ _ _ r (⟨32 + q.val, by have := q.isLt; omega⟩ : Fin 64) q ?_ (fun n => ?_) (fun r' => hcat_lv m c r' q)
  · exact (Cert.HostLayout.scalar_apply _ _ _).trans (Cert.HostLayout.scalar_apply _ _ _).symm
  · unfold val_main_v35 val_main_v34 val_main_v148 val_main_v147
    refine (bcast_col_apply (by decide) _ _ _ n _).trans (Eq.trans ?_ (bcast_col_apply (by decide) _ _ _ n q).symm)
    rfl

/-- The self-loop scale read at column 32 + q of 64 and at column q of 32: the same number, 1/deg of the row's node. -/
theorem dis_lv (r : Fin 100000) (q : Fin 32) :
    val_main_v42 (F := Ideal) (m ((c : Thread nD τ).loc main_arg1)) (ix2 r (⟨32 + q.val, by have := q.isLt; omega⟩ : Fin 64)) = val_main_v155 (F := Ideal) (m ((c : Thread nD τ).loc main_arg1)) (ix2 r q) := by
  unfold val_main_v42 val_main_v41 val_main_v155 val_main_v154
  refine (bcast_col_apply (by decide) _ _ _ r _).trans (Eq.trans ?_ (bcast_col_apply (by decide) _ _ _ r q).symm)
  rfl

/-- Column 32 + q of the joined self-loop term is column q of the reference's. -/
theorem selfcat_lv (r : Fin 100000) (q : Fin 32) :
    selfcat m c (ix2 r (⟨32 + q.val, by have := q.isLt; omega⟩ : Fin 64)) = val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (ix2 r q) := by
  unfold selfcat val_main_v156
  rw [mulf_apply, mulf_apply, hcat_lv m c r q, dis_lv m c r q]

/-- Entry 32 + q of the joined bias row, broadcast down the rows, is entry q of blv. -/
theorem brow_lv (r : Fin 100000) (q : Fin 32) :
    broadcastInDim S100000x64 ![0, 1] Cert.ReferenceIdeal.Gen.bcast_S1x64_S100000x64_0_1 (brow m c) (ix2 r (⟨32 + q.val, by have := q.isLt; omega⟩ : Fin 64))
      = val_main_v159 (F := Ideal) (m ((c : Thread nD τ).loc main_arg9)) (ix2 r q) := by
  unfold val_main_v159 val_main_v158
  refine Eq.trans ?_ (Cert.HostLayout.biasRow_apply ((m ((c : Thread nD τ).loc main_arg9)) : FVec Ideal S32 .f32) _ _ r q).symm
  refine (broadcastInDim_apply _ Cert.ReferenceIdeal.Gen.bcast_S1x64_S100000x64_0_1 (brow m c) (ix2 r (⟨32 + q.val, by have := q.isLt; omega⟩ : Fin 64)) (ix2 (0 : Fin 1) (⟨32 + q.val, by have := q.isLt; omega⟩ : Fin 64)) fun a => ?_).trans ?_
  · match a with
    | ⟨0, _⟩ => show (0 : Fin 1).val = if (1 : Nat) = 1 then 0 else r.val; rw [if_pos rfl]; rfl
    | ⟨1, _⟩ => show 32 + q.val = if (64 : Nat) = 1 then 0 else 32 + q.val; rw [if_neg (by decide)]
  unfold brow
  refine (shapeCast_apply _ _ (ix2 (0 : Fin 1) (⟨32 + q.val, by have := q.isLt; omega⟩ : Fin 64)) (ix1 (⟨32 + q.val, by have := q.isLt; omega⟩ : Fin 64)) ?_).trans ?_
  · rw [Shape.rowMajor_val_two, Shape.rowMajor_val_one]
    show 32 + q.val = 0 * 64 + (32 + q.val)
    omega
  refine concatenate_pair_apply_right (t := S64) (s₁ := S32) (s₂ := S32) (0 : Fin 1) _ _ _ (ix1 (⟨32 + q.val, by have := q.isLt; omega⟩ : Fin 64)) rfl rfl (ix1 q) (fun b hb => ?_) ?_
  · match b with
    | ⟨0, _⟩ => exact absurd rfl hb
  · show q.val + 32 = 32 + q.val; omega

/-- THE SECOND RESULT is the reference's: the right 32 columns of the joined output are logvar. -/
theorem out_lv :
    extractStridedSlice S100000x32 ![0, 32] (outcat m c) Gen.slices_S100000x64_S100000x32_0_32
      = val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  funext j
  obtain ⟨r, q, rfl⟩ : ∃ (r : Fin 100000) (q : Fin 32), j = ix2 r q := ⟨j 0, j 1, eq_ix2 j⟩
  refine (extractStridedSlice_apply ![0, 32] (outcat m c) _ (ix2 r q) (ix2 r (⟨32 + q.val, by have := q.isLt; omega⟩ : Fin 64)) fun a => ?_).trans ?_
  · match a with
    | ⟨0, _⟩ => show r.val = 0 + r.val; omega
    | ⟨1, _⟩ => rfl
  rw [outcat, combined_apply, val_main_v160_apply, val_main_v157_apply]
  rw [aggcat_lv m c r q, selfcat_lv m c r q, brow_lv m c r q]

end Cert.KernelIdeal.Stages

end
-- ==== Proof.lean ====
/-
  A three-layer graph convolution (two hidden layers with a maximum with zero, then the two heads mu and logvar)
  in four kernels among host gathers and scatters, against the same network written with plain host operations.

  Both programs compute, layer by layer, out[r] = Σ_{e : dst e = r} w_e · (h · W)[src e] + (h · W)[r] / deg r + b with
  w_e = deg(src e)^(-1/2) · deg(dst e)^(-1/2) and deg r = 1 + #{e : dst e = r}. The kernel differs from the reference in
  three ways, none of which changes a value on the extended reals:
    * the products h · W run block by block on 5000 rows at a time, their operands narrowed first (the identity
      here); each block is the same rows of the host's product on the whole table;
    * the combine max(aggregate + self-loop + bias, 0) is fused into the next product's kernel;
    * the two heads are computed as ONE product with the joined table [Wmu | Wlv], one aggregation and one combine
      over 64 columns, sliced in two at the end; column by column this is the two separate heads.
  The proof names every buffer of the kernel at each boundary between a host stretch and a region by the
  reference's own stage (Stages), reads the last layer entry by entry (LastLayer), and then both programs' runs
  end at the same two arrays. The inputs' finiteness is never used: no law that fails at an infinity is needed.
-/
import proofs.«141413_j55662776156338_2_alg».proof.Defs
import proofs.«141413_j55662776156338_2_alg».proof.Proof.Gen.Kernel
import proofs.«141413_j55662776156338_2_alg».proof.Proof.Gen.Kernel.Skeleton
import proofs.«141413_j55662776156338_2_alg».proof.Proof.Gen.Kernel.Launch
import proofs.«141413_j55662776156338_2_alg».proof.Proof.Gen.Kernel.Points
import proofs.«141413_j55662776156338_2_alg».proof.Proof.Gen.Kernel.Frame
import proofs.«141413_j55662776156338_2_alg».proof.Proof.Gen.KernelIdeal
import proofs.«141413_j55662776156338_2_alg».proof.Proof.Gen.KernelIdeal.Skeleton
import proofs.«141413_j55662776156338_2_alg».proof.Proof.Gen.KernelIdeal.Launch
import proofs.«141413_j55662776156338_2_alg».proof.Proof.Gen.KernelIdeal.Points
import proofs.«141413_j55662776156338_2_alg».proof.Proof.Gen.KernelIdeal.Frame
import proofs.«141413_j55662776156338_2_alg».proof.Proof.Gen.ReferenceIdeal
import proofs.«141413_j55662776156338_2_alg».proof.Proof.Gen.Pre_finite_inputs
import proofs.«141413_j55662776156338_2_alg».proof.Proof.Gen.ReferenceIdeal.Run
import proofs.«141413_j55662776156338_2_alg».proof.Proof.Gen.ReferenceIdeal.Read
import proofs.«141413_j55662776156338_2_alg».proof.Proof.NamedRun
import proofs.«141413_j55662776156338_2_alg».proof.Proof.Stages
import proofs.«141413_j55662776156338_2_alg».proof.Proof.LastLayer
import Idealize.ShloMosaic.Adequacy
import Idealize.ShloMosaic.Init

set_option maxRecDepth 16384

noncomputable section

namespace Cert.Proof

open Idealize.ShloMosaic Idealize.SL.Sem Cert.Kernel

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with mu and logvar at the reference's last stages of the arguments. -/
theorem algebraic : Cert.algebraic_KernelIdeal_ReferenceIdeal := by
  intro m ρ m' ρ' _ hagree
  refine ⟨fun c => Cert.ReferenceIdeal.Read.val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v160 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Named.run (F := Ideal) m ρ)
    obtain ⟨h80, h81, hargs⟩ := h c
    exact ⟨h80.trans ((Cert.KernelIdeal.Stages.w9_v80 m ρ c).trans (Cert.KernelIdeal.Stages.out_mu m c)),
      h81.trans ((Cert.KernelIdeal.Stages.w9_v81 m ρ c).trans (Cert.KernelIdeal.Stages.out_lv m c)), hargs⟩
  · refine (θ_run Cert.ReferenceIdeal.defs _ _).mono (fun r h c => ?_) (Cert.ReferenceIdeal.Value.run (F := Ideal) m' ρ')
    obtain ⟨h123, h160, hargs⟩ := h c
    obtain ⟨e0, e1, e2, e3, e4, e5, e6, e7, e8, e9⟩ := hagree c
    refine ⟨h123.trans ?_, h160.trans ?_, hargs⟩
    · rw [Cert.ReferenceIdeal.Read.val_main_v123_eq, e0, e1, e2, e3, e4, e5, e6, e7]
    · rw [Cert.ReferenceIdeal.Read.val_main_v160_eq, e0, e1, e2, e3, e4, e5, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
